-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x2EDBE6FF#32
  let main_v22 : FVec F S8192 .f32 := broadcastInDim S8192 ![] bcast_S_S8192 main_cst_6
  let main_v23 : FVec F S8192 .f32 := addf main_v21 main_v22
  let main_cst_7 : FVec F S_ .f32 := constant S_ .f32 0x00000000#32
  let main_v24 : FVec F S8192 .f32 := broadcastInDim S8192 ![] bcast_S_S8192 main_cst_7
  let main_v25 : IVec S8192 1 := cmpf .ogt main_v23 main_v24
  let main_c_8 : IVec S_ 1 := constantI S_ 1 1#1
  let main_v26 : IVec S_ 1 := (fun x v => Host.reduce IntOp.andi x v reducesTo_S8192_S_d0 h_S_) main_v25 main_c_8
  let main_v27 : IVec S_ 1 := andi main_v13 main_v26
  main_v27

def fn {F : FTy → Type} [FloatOps F] (main_arg0 : FVec F S8192x512 .f32) (main_arg1 : FVec F S8192x8192 .f32) (main_arg2 : FVec F S512x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S8192x1 : Shape := ⟨2, ![8192, 1]⟩
abbrev S8192x256 : Shape := ⟨2, ![8192, 256]⟩
abbrev S512x8192 : Shape := ⟨2, ![512, 8192]⟩
abbrev S512x512 : Shape := ⟨2, ![512, 512]⟩
abbrev S512x1 : Shape := ⟨2, ![512, 1]⟩
abbrev S512 : Shape := ⟨1, ![512]⟩
abbrev S1024x2048 : Shape := ⟨2, ![1024, 2048]⟩
abbrev S1024x256 : Shape := ⟨2, ![1024, 256]⟩
abbrev S2048x256 : Shape := ⟨2, ![2048, 256]⟩
abbrev S1024x1 : Shape := ⟨2, ![1024, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S8192x1, .f32⟩
  | .hbm, ⟨4, _⟩ => ⟨S8192x256, .bf16⟩
  | .hbm, ⟨5, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x1, .f32⟩
  | .local _ .vmem, ⟨6, _⟩ => ⟨S512x1, .f32⟩
  | .local _ .vmem, ⟨7, _⟩ => ⟨S512x256, .bf16⟩
  | .local _ .vmem, ⟨8, _⟩ => ⟨S512x256, .bf16⟩
  | .local _ .vmem, ⟨9, _⟩ => ⟨S1024x2048, .f32⟩
  | .local _ .vmem, ⟨10, _⟩ => ⟨S1024x2048, .f32⟩
  | .local _ .vmem, ⟨11, _⟩ => ⟨S8192x256, .bf16⟩
  | .local _ .vmem, ⟨12, _⟩ => ⟨S8192x1, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c1024_i32 : BitVec 32 := 1024#32
  let v19 : BitVec 32 := Scalar.muli arg0 c1024_i32
  v19
def k1_off2 (i : grid1.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def k1_off3 (i : grid1.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v25 : Index := Scalar.indexCast v20
  let c0_9 : Index := 0#32
  ![v25.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  broadcasts_S512x1_S512x256 : S512x1.Broadcasts S512x256
  packedbf16_S512x256_S512x256_0_0 : (Rect.unit (s := S512x256) ![0, 0] S512x256.size inb_S512x256_S512x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  h_S2048x256 : 0 < S2048x256.numel
  shapeCasts_S2048x256_S2048x256 : S2048x256.ShapeCasts S2048x256
  h_S1024x1 : 0 < S1024x1.numel
  shapeCasts_S1024x1_S1024x1 : S1024x1.ShapeCasts S1024x1
  broadcasts_S1024x1_S1024x256 : S1024x1.Broadcasts S1024x256
  dot_S512x512_S512x256_S512x256_1_0_0_1_n_n_wf : DotDims.WF S512x512 S512x256 S512x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .bf16 = 32 ∨ (Rect.block (s := S8192x256) S512x256.size (cc0_transform_4 i) (hinb0_4 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x256.size a ≤ S8192x256.size a
  k1_off3_inb : ∀ i : grid1.Coords, ∀ (k1_h2 : k1_cond2 i = 1#1), ∀ a, (k1_off3 i) a + S1024x1.size a ≤ S8192x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S8192x1.size a
  hwx1_2 : ∀ i : grid1.Coords, EltTy.bits .f32 = 32 ∨ (Rect.block (s := S8192x1) S8192x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S8192x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.R0.lean ====
/-
  The first of the two kernels (the row degrees and the scaled features), as far as memory goes, at any float
  instance: what the body finds in each input window's buffer at a grid point (the window's block of its array),
  what it leaves in each output window's buffer (the stored payload, a function of the input blocks alone), and
  the proof data and body obligation of its pipeline, at ANY contents `V` of the core's buffers when the kernel is
  entered.

  Point `t` of the 16 handles rows 512 t … 512 t + 511: window 0 is that band of the adjacency, window 1 that band
  of the features, window 2 the whole weight matrix (moved once, at the first point, and left in place), window 3
  the band's column of reciprocal square-root degrees and window 4 the band of scaled features. Each output is
  stored once, whole, so its buffer after the body is the payload itself.
-/
import proofs.«101077_j30270929502676_2_alg».proof.Proof.Gen.Kernel.Launch
import proofs.«101077_j30270929502676_2_alg».proof.Proof.Gen.Kernel.Skeleton
import proofs.«101077_j30270929502676_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 × 8192 entries: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the kernel is entered
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency band's buffer holds the band at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The feature band's buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weights' buffer likewise: moved at the first point only, its block index never moves afterwards, so the
    buffer still holds the one block at every later point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S512x8192 := Rect.unit (s := S512x8192) ![0, 0] S512x8192.size inb_S512x8192_S512x8192_0_0
abbrev r0_1 : Rect S512x1 := Rect.unit (s := S512x1) ![0, 0] S512x1.size inb_S512x1_S512x1_0_0
abbrev r0_2 : Rect S512x512 := Rect.unit (s := S512x512) ![0, 0] S512x512.size inb_S512x512_S512x512_0_0
abbrev r0_3 : Rect S512x256 := Rect.unit (s := S512x256) ![0, 0] S512x256.size inb_S512x256_S512x256_0_0

/-! ## What the body leaves in each output window's buffer -/

/-- The degree column's buffer after the body, from the adjacency band: the one whole store of the reciprocal
    square roots of the band's row sums plus one plus the small literal. -/
def out0_3 (x0 : Vec F S512x8192 .f32) : Vec F S512x1 .f32 :=
  View.canon [⟨r0_1, k0_pay1 (View.ld x0 r0_0)⟩]

/-- The scaled features' buffer after the body, from the three input blocks: the one whole store of the band of
    features times the weights, each row scaled by its reciprocal square-root degree. -/
def out0_4 (x0 : Vec F S512x8192 .f32) (x1 : Vec F S512x512 .f32) (x2 : Vec F S512x256 .f32) : Vec F S512x256 .bf16 :=
  View.canon [⟨r0_3, k0_pay2 (View.ld x0 r0_0) (View.ld x1 r0_2) (View.ld x2 r0_3)⟩]

/-- The one store covers the column. -/
theorem cover0_3 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-- The one store covers the band. -/
theorem cover0_4 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-! ## The body's triple -/

set_option maxHeartbeats 1000000 in
/-- The kernel body on whole staging memrefs, the inputs' at read contents `x0`, `x1`, `x2` and the outputs' at anything,
    runs to the continuation holding the inputs' as they were and each output's at its payload of the inputs'. -/
theorem sound_kernel0 (c : Dev nD) (E : Set ℕ) (i : grid0.Coords) (arg1 : Memref sig .tc .vmem S512x8192 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x256 .bf16) (harg5 : arg5.IsWhole)
    (x0 : Vec F S512x8192 .f32) (x1 : Vec F S512x512 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__degnorm_kernel i arg1 harg1 arg2 harg2 arg3 harg3 arg4 harg4 arg5 harg5) K := by
  simp only [cc0__degnorm_kernel_eq_skeleton]; unfold cc0__degnorm_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the first kernel's pipeline on core `c`: the arrays as the kernel finds them; after the body at
    point `t` each input's buffer at its block and each output's at its payload of the input blocks; the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, moved there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The input arrays are never written back -/

/-- After the kernel's run the three input arrays — the adjacency, the features, the weights, in the order the
    windows stage them — hold what they held at entry. -/
theorem arr_in0 (c : Dev nD) : (dat0 V c).arrAt 0 cfg0.N = V c main_arg1 ∧ (dat0 V c).arrAt 1 cfg0.N = V c main_arg0
    ∧ (dat0 V c).arrAt 2 cfg0.N = V c main_arg2 :=
  ⟨((dat0 V c).arrAt_in 0 rfl _).trans (A_eq0 V c 0), ((dat0 V c).arrAt_in 1 rfl _).trans (A_eq0 V c 1),
    ((dat0 V c).arrAt_in 2 rfl _).trans (A_eq0 V c 2)⟩

end Cert.Kernel.Hand

end
-- ==== Proof.K.R1Defs.lean ====
/-
  The second region (the aggregation kernel on its 8 × 4 grid), frame half: the proof data of its pipeline with
  the accumulator it carries in scratch TRACKED from point to point.

  Point t is (i, k) = (t / 4, t % 4).  The body resets the accumulator to zeros when k = 0, always adds the
  product of the point's 1024 × 2048 block of the adjacency with rows 2048 k … of the scaled features, and when
  k = 3 stores  max ((acc + rows 1024 i … of the scaled features) * rows 1024 i … of the scales, 0)  into the
  output block, which the pipeline writes back at those points only.  So after point t the accumulator holds the
  partial sum over the column blocks 0 … k of row block i (`acc1`), and the invariant between points says so.
  Everything is stated at a parameter `V`: the buffers' contents when the region is entered.
-/
import proofs.«101077_j30270929502676_2_alg».proof.Proof.Gen.Kernel.Launch
import proofs.«101077_j30270929502676_2_alg».proof.Proof.Gen.Kernel.Skeleton
import proofs.«101077_j30270929502676_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the second grid coordinate is zero), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the second grid coordinate is three). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output window is idle: nothing is stored into it, -/
theorem idleAt1_3 : ∀ t : Fin cfg1.N, ¬cond1_1 (grid1.coords t) → cfg1.idle 3 (grid1.coords t) = true := by decide +kernel
/-- and its block is not written back. -/
theorem noFlush1_3 : ∀ t : Fin cfg1.N, ¬cond1_1 (grid1.coords t) → (cfg1.win 3).flush t = false := by decide +kernel
/-- Where it holds the window is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x256 .f32 := Memref.whole cc1_scratch0

/-! ## The body's accesses of the two whole-array windows -/

/-- Rows 2048 k … 2048 k + 2047 of the scaled features (all 256 columns). -/
abbrev rB1 (i : grid1.Coords) : Rect S8192x256 := Rect.unit (s := S8192x256) (k1_off1 i) S2048x256.size (k1_off1_inb i)
/-- Rows 1024 i … 1024 i + 1023 of the scaled features. -/
abbrev rB2 (i : grid1.Coords) (h : k1_cond2 i = 1#1) : Rect S8192x256 := Rect.unit (s := S8192x256) (k1_off2 i) S1024x256.size (k1_off2_inb i h)
/-- Rows 1024 i … 1024 i + 1023 of the scales. -/
abbrev rD3 (i : grid1.Coords) (h : k1_cond2 i = 1#1) : Rect S8192x1 := Rect.unit (s := S8192x1) (k1_off3 i) S1024x1.size (k1_off3_inb i h)

/-! ## The region invariant, the accumulator split off -/

/-- A scoped buffer whole at some contents. -/
abbrev heldAny (c : Dev nD) (b : Ref sig .tc) : sProp 𝕄 :=
  iprop(∃ f : Buf (Elt F) ((c : Thread nD τ).loc b), ((c : Thread nD τ).loc b) ↦{fullShare} f)

/-- What rides beside the accumulator: the first region's staging buffers at anything, the generator register at
    some state. -/
def rest1 (c : Dev nD) : sProp 𝕄 :=
  iprop(heldAny (F := F) c cc0_stg0_0 ∗ heldAny (F := F) c cc0_stg0_1 ∗ heldAny (F := F) c cc0_stg1_0 ∗ heldAny (F := F) c cc0_stg1_1
    ∗ heldAny (F := F) c cc0_stg2_0 ∗ heldAny (F := F) c cc0_stg3_0 ∗ heldAny (F := F) c cc0_stg3_1 ∗ heldAny (F := F) c cc0_stg4_0
    ∗ heldAny (F := F) c cc0_stg4_1 ∗ (∃ r, prngReg c r))

/-- The class invariant is the accumulator at anything beside the rest, -/
theorem PhiA1_elim (c : Dev nD) :
    (Pipeline.ΦA spec1 c : sProp 𝕄) ⊢ iprop((∃ d, owns (c : Thread nD τ) scM1_0 fullShare d) ∗ rest1 (F := F) c) := by
  unfold Pipeline.ΦA rest1; rw [scopedRest1_eq]; simp only [scM1_0, owns_whole]
  iintro ⟨⟨R1, R2, R3, R4, R5, R6, R7, R8, R9, HS⟩, Hg⟩
  isplitl [HS]; · iexact HS
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Hg

/-- and conversely. -/
theorem PhiA1_intro (c : Dev nD) :
    iprop((∃ d, owns (c : Thread nD τ) scM1_0 fullShare d) ∗ rest1 (F := F) c) ⊢ (Pipeline.ΦA spec1 c : sProp 𝕄) := by
  unfold Pipeline.ΦA rest1; rw [scopedRest1_eq]; simp only [scM1_0, owns_whole]
  iintro ⟨HS, R1, R2, R3, R4, R5, R6, R7, R8, R9, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

section Region
-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- One point's step: the accumulator after the body at position `n`, from what it held when the product was
    added (`prev`): `prev` plus the product of the point's adjacency block with its rows of the scaled features. -/
def accStep1 (c : Dev nD) (n : ℕ) (prev : Vec F S1024x256 .f32) : Vec F S1024x256 .f32 :=
  if h : n < cfg1.N then
    k1_pay2 (iblk1 V c 0 ⟨n, h⟩) (View.ld (iblk1 V c 1 ⟨n, h⟩) (rB1 (grid1.coords ⟨n, h⟩))) prev
  else prev

/-- THE ACCUMULATION. What the scratch accumulator holds after the body at position `n`: the step from zeros at a
    point with k = 0, from what the point before left elsewhere. -/
def acc1 (c : Dev nD) : ℕ → Vec F S1024x256 .f32
  | 0 => accStep1 V c 0 k1_pay1
  | n + 1 => accStep1 V c (n + 1) (if (n + 1) % 4 = 0 then k1_pay1 else acc1 c n)

theorem acc1_eq (c : Dev nD) (t : Fin cfg1.N) :
    acc1 V c t.val = k1_pay2 (iblk1 V c 0 t) (View.ld (iblk1 V c 1 t) (rB1 (grid1.coords t)))
      (if t.val % 4 = 0 then k1_pay1 else acc1 V c (t.val - 1)) := by
  obtain ⟨n, hn⟩ := t
  cases n with
  | zero =>
    show acc1 V c 0 = k1_pay2 _ _ (if 0 % 4 = 0 then k1_pay1 else acc1 V c (0 - 1))
    rw [if_pos (Nat.zero_mod 4), acc1, accStep1]
    exact dif_pos hn
  | succ n =>
    show acc1 V c (n + 1) = k1_pay2 _ _ (if (n + 1) % 4 = 0 then k1_pay1 else acc1 V c n)
    rw [acc1, accStep1]
    exact dif_pos hn

/-- At a point with k = 0: from zeros. -/
theorem acc1_reset (c : Dev nD) (t : Fin cfg1.N) (h : t.val % 4 = 0) :
    acc1 V c t.val = k1_pay2 (iblk1 V c 0 t) (View.ld (iblk1 V c 1 t) (rB1 (grid1.coords t))) k1_pay1 := by
  rw [acc1_eq, if_pos h]
/-- Elsewhere: from what the point before left. -/
theorem acc1_step (c : Dev nD) (t : Fin cfg1.N) (h : ¬t.val % 4 = 0) :
    acc1 V c t.val = k1_pay2 (iblk1 V c 0 t) (View.ld (iblk1 V c 1 t) (rB1 (grid1.coords t))) (acc1 V c (t.val - 1)) := by
  rw [acc1_eq, if_neg h]

/-! ## What the output's buffer holds after each point -/

/-- At a point with k = 3 the stored block: the accumulator plus the row block's own scaled features, scaled,
    clamped at zero. Elsewhere the window is idle and not written back, and what is named here is consulted by
    nothing (zeros, to have a name). -/
def out1_3 (c : Dev nD) (t : Fin cfg1.N) : Vec F S1024x256 .f32 :=
  if h : t.val % 4 = 3 then
    k1_pay3 (View.ld (iblk1 V c 1 t) (rB2 (grid1.coords t) ((hcond1_1 t).mpr h)))
      (View.ld (iblk1 V c 2 t) (rD3 (grid1.coords t) ((hcond1_1 t).mpr h))) (acc1 V c t.val)
  else k1_pay1

/-! ## The tracked invariant -/

/-- Before position `n`: before the first point the class invariant (the accumulator at anything); afterwards the
    accumulator at what the point before left, beside the rest. -/
def PhiS1 (c : Dev nD) : ℕ → sProp 𝕄
  | 0 => Pipeline.ΦA spec1 c
  | n + 1 => iprop(owns (c : Thread nD τ) scM1_0 fullShare (acc1 V c n) ∗ rest1 (F := F) c)

theorem PhiS1_zero (c : Dev nD) : PhiS1 V c 0 = Pipeline.ΦA spec1 c := rfl
theorem PhiS1_succ (c : Dev nD) (n : ℕ) :
    PhiS1 V c (n + 1) = iprop(owns (c : Thread nD τ) scM1_0 fullShare (acc1 V c n) ∗ rest1 (F := F) c) := rfl
theorem PhiS1_pos (c : Dev nD) (n : ℕ) (hz : n ≠ 0) :
    PhiS1 V c n = iprop(owns (c : Thread nD τ) scM1_0 fullShare (acc1 V c (n - 1)) ∗ rest1 (F := F) c) := by
  cases n with
  | zero => exact absurd rfl hz
  | succ n => rfl

/-! ## The pipeline's proof data -/

/-- The proof data of the region's pipeline on core `c`: the arrays as the region finds them; after the body each
    input's buffer at its block, the output's at `out1_3`; the tracked invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val
  q _ := fullShare
  owed _ := 0

theorem A_eq1 (c : Dev nD) (w : Fin cfg1.W) : (dat1 V c).A w = V c (Pipeline.arrRef spec1 w) := by
  dsimp only [dat1]

theorem Phi_eq1 (c : Dev nD) (t : Fin (cfg1.N + 1)) : (dat1 V c).Φ t = PhiS1 V c t.val := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = out1_3 V c t := by dsimp only [dat1]

/-- What the pipeline writes back at a point with k = 3. -/
theorem after1_3 (c : Dev nD) (t : Fin cfg1.N) (h : t.val % 4 = 3) :
    (dat1 V c).after 3 t = k1_pay3 (View.ld (iblk1 V c 1 t) (rB2 (grid1.coords t) ((hcond1_1 t).mpr h)))
      (View.ld (iblk1 V c 2 t) (rD3 (grid1.coords t) ((hcond1_1 t).mpr h))) (acc1 V c t.val) := by
  rw [after1_3']; unfold out1_3; rw [dif_pos h]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The invariant against the class invariant -/

/-- What the launch hands the region is the invariant before the first point. -/
theorem hin1 (c : Dev nD) : (Pipeline.ΦA spec1 c : sProp 𝕄) ⊢ (dat1 V c).Φ 0 := by
  rw [Phi_eq1]; exact Idealize.SL.BI.Entails.refl _

/-- After any point the invariant gives the class invariant back: the accumulator's named contents are forgotten. -/
theorem Phi_out1 (c : Dev nD) (t : Fin (cfg1.N + 1)) (ht : t.val ≠ 0) : (dat1 V c).Φ t ⊢ (Pipeline.ΦA spec1 c : sProp 𝕄) := by
  rw [Phi_eq1, PhiS1_pos V c _ ht]
  exact (show iprop(owns (c : Thread nD τ) scM1_0 fullShare (acc1 V c (t.val - 1)) ∗ rest1 (F := F) c)
      ⊢ (iprop((∃ d, owns (c : Thread nD τ) scM1_0 fullShare d) ∗ rest1 (F := F) c) : sProp 𝕄) from by
    iintro ⟨HS, HR⟩
    isplitl [HS]
    · iexists _; iexact HS
    iexact HR).trans (PhiA1_intro c)

theorem hout1 (c : Dev nD) : (dat1 V c).Φ (Fin.last cfg1.N) ⊢ (Pipeline.ΦA spec1 c : sProp 𝕄) :=
  Phi_out1 V c _ (by rw [Fin.val_last]; have : cfg1.N = 32 := N_1; omega)

end Region

end Cert.Kernel.Hand

end
-- ==== Proof.K.R1RunA.lean ====
/-
  The aggregation kernel's body, run whole, at the points of case A (the second grid coordinate is 0: the first
  conditional is taken, the second is not).  The accumulator, found at anything, is first set to zeros and then
  left at zeros plus the product of the adjacency block with its rows of the scaled features; every store fills
  its whole buffer, so what the accumulator holds afterwards is the last stored value, and the load between the
  two stores reads the zeros just stored.  The output's buffer, idle here, is handed back untouched.
-/
import proofs.«101077_j30270929502676_2_alg».proof.Proof.K.R1Defs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the accumulator, found at anything, is left at zeros plus the product of the adjacency block `x0` with
    its rows of the scaled features `x1`; the output's buffer, idle here, is handed back untouched. -/
theorem kernelRun1_A (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S8192x1 .f32) (harg4 : arg4.IsWhole)
    (arg5 : Memref sig .tc .vmem S1024x256 .f32) (harg5 : arg5.IsWhole)
    (arg6 : Memref sig .tc .vmem S1024x256 .f32) (harg6 : arg6.IsWhole)
    (hc0 : cond1_0 i) (hc1 : ¬cond1_1 i)
    (x0 : Vec F S1024x2048 .f32) (x1 : Vec F S8192x256 .bf16) (x2 : Vec F S8192x1 .f32)
    (xi3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (rB1 i)) k1_pay1)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  have hz2 : (![0, 0] : Fin 2 → Nat) = fun _ => 0 := funext fun a => by fin_cases a <;> rfl
  sl_unfold_run_names
  have hcov : ∀ (p q : Vec F S1024x256 .f32) (y : S1024x256.Idx),
      ∃ pc ∈ ([⟨Rect.unit (s := S1024x256) ![0, 0] S1024x256.size inb_S1024x256_S1024x256_0_0, p⟩,
          ⟨Rect.unit (s := S1024x256) ![0, 0] S1024x256.size inb_S1024x256_S1024x256_0_0, q⟩] : List (View.Piece (Elt F) S1024x256 .f32)), y ∈ pc.1.set :=
    fun p q y => ⟨_, List.mem_cons_self .., View.mem_set_unit_zero hz2 inb_S1024x256_S1024x256_0_0 y⟩
  refine (View.read_writes_eq_canon _ _ _ (hcov _ _)).trans ?_
  refine (View.canon_cons_unit_zero hz2 _ _ _).trans ?_
  rw [View.readCov_unit_zero (S := S1024x256) _ hz2]
  simp only [View.readAt_eq_ld, harg2.read_unread, harg3.read_unread,
    View.ld_unit_zero (S := S1024x2048) hz2]

end Cert.Kernel.Hand

end
-- ==== Proof.K.R1RunB.lean ====
/-
  The aggregation kernel's body, run whole, at the points of case B (the second grid coordinate is 1 or 2: neither conditional is taken).
  On whole staging memrefs holding the inputs' contents the body runs to the continuation with the inputs as
  they were and the accumulator at the sum it leaves; every store fills its whole buffer, so what a buffer holds
  afterwards is the stored value itself.
-/
import proofs.«101077_j30270929502676_2_alg».proof.Proof.K.R1Defs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the accumulator, found at `xs0`, is left at `xs0` plus the product of the adjacency block `x0` with its
    rows of the scaled features `x1`; the output's buffer, idle here, is handed back untouched. -/
theorem kernelRun1_B (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S8192x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : ¬cond1_1 i)
    (x0 : Vec F S1024x2048 .f32) (x1 : Vec F S8192x256 .bf16) (x2 : Vec F S8192x1 .f32) (xs0 : Vec F S1024x256 .f32)
    (xi3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (rB1 i)) xs0)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  have hz2 : (![0, 0] : Fin 2 → Nat) = fun _ => 0 := funext fun a => by fin_cases a <;> rfl
  have hcov : ∀ (p : Vec F S1024x256 .f32) (y : S1024x256.Idx),
      ∃ pc ∈ ([⟨Rect.unit (s := S1024x256) ![0, 0] S1024x256.size inb_S1024x256_S1024x256_0_0, p⟩] : List (View.Piece (Elt F) S1024x256 .f32)), y ∈ pc.1.set :=
    fun p y => ⟨_, List.mem_singleton_self _, View.mem_set_unit_zero hz2 inb_S1024x256_S1024x256_0_0 y⟩
  refine (View.read_writes_eq_canon _ _ _ (hcov _)).trans ?_
  refine (View.canon_unit_zero hz2 _ _).trans ?_
  simp only [View.readAt_eq_ld, harg2.read_unread, harg3.read_unread, harg6.read_unread,
    View.ld_unit_zero (S := S1024x2048) hz2, View.ld_unit_zero (S := S1024x256) hz2]

end Cert.Kernel.Hand

end
-- ==== Proof.K.R1RunC.lean ====
/-
  The aggregation kernel's body, run whole, at the points of case C (the second grid coordinate is 3: the first
  conditional is not taken, the second is).  The accumulator, found at the partial sum the point before left, is
  left at that sum plus the product of the adjacency block with its rows of the scaled features; the output's
  buffer, found at anything, is stored whole with the accumulator plus the row block's own scaled features,
  scaled by the row block's scales and clamped at zero.  Every store fills its whole buffer, so what a buffer
  holds afterwards is the stored value itself, and the load of the accumulator after its store reads that value.
-/
import proofs.«101077_j30270929502676_2_alg».proof.Proof.K.R1Defs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the accumulator, found at `xs0`, is left at `xs0` plus the product of the adjacency block `x0` with its
    rows of the scaled features `x1`; the output's buffer, found at anything, is left at that sum plus the row block's own
    rows of `x1`, times the row block's rows of the scales `x2`, clamped at zero. -/
theorem kernelRun1_C (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S8192x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : cond1_1 i)
    (x0 : Vec F S1024x2048 .f32) (x1 : Vec F S8192x256 .bf16) (x2 : Vec F S8192x1 .f32) (xs0 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (View.ld x1 (rB2 i hc1)) (View.ld x2 (rD3 i hc1)) (k1_pay2 x0 (View.ld x1 (rB1 i)) xs0))
            ∗ owns (c : Thread nD τ) arg6 fullShare (k1_pay2 x0 (View.ld x1 (rB1 i)) xs0)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  have hz2 : (![0, 0] : Fin 2 → Nat) = fun _ => 0 := funext fun a => by fin_cases a <;> rfl
  have hcov : ∀ (p : Vec F S1024x256 .f32) (y : S1024x256.Idx),
      ∃ pc ∈ ([⟨Rect.unit (s := S1024x256) ![0, 0] S1024x256.size inb_S1024x256_S1024x256_0_0, p⟩] : List (View.Piece (Elt F) S1024x256 .f32)), y ∈ pc.1.set :=
    fun p y => ⟨_, List.mem_singleton_self _, View.mem_set_unit_zero hz2 inb_S1024x256_S1024x256_0_0 y⟩
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    refine (View.read_writes_eq_canon _ _ _ (hcov _)).trans ?_
    refine (View.canon_unit_zero hz2 _ _).trans ?_
    rw [View.readCov_unit_zero (S := S1024x256) _ hz2]
    simp only [View.readAt_eq_ld, harg2.read_unread, harg3.read_unread, harg4.read_unread, harg6.read_unread,
      View.ld_unit_zero (S := S1024x2048) hz2, View.ld_unit_zero (S := S1024x256) hz2]
  iexists _; isplitr
  swap; · iexact HS0
  ipureintro
  sl_unfold_run_names
  refine (View.read_writes_eq_canon _ _ _ (hcov _)).trans ?_
  refine (View.canon_unit_zero hz2 _ _).trans ?_
  simp only [View.readAt_eq_ld, harg2.read_unread, harg3.read_unread, harg6.read_unread,
    View.ld_unit_zero (S := S1024x2048) hz2, View.ld_unit_zero (S := S1024x256) hz2]

end Cert.Kernel.Hand

end
-- ==== Proof.K.R1.lean ====
/-
  The aggregation kernel's body obligation: at every point of the 8 × 4 grid the body, run from the tracked
  invariant and the windows' current buffers, re-establishes the invariant at the next point and leaves each
  buffer as the proof data say.  By cases on the point's position modulo 4 — 0: the accumulator is reset and the
  first product added; 1, 2: a product added; 3: a product added and the output block stored — each case the
  whole-body run of that case.
-/
import proofs.«101077_j30270929502676_2_alg».proof.Proof.K.R1RunA
import proofs.«101077_j30270929502676_2_alg».proof.Proof.K.R1RunB
import proofs.«101077_j30270929502676_2_alg».proof.Proof.K.R1RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffers' contents when the region is entered
variable (V : (c : Dev nD) → (b : Ref sig .tc) → Buf (Elt F) ((c : Thread nD τ).loc b))

theorem PhiS1_of_zero (c : Dev nD) (n : ℕ) (hz : n = 0) : PhiS1 V c n = (Pipeline.ΦA spec1 c : sProp 𝕄) := by
  subst hz; rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's position modulo 4 says which case it
    is in. The invariant hands the body the accumulator at what the point before left (at anything before the first
    point) and takes it back at this point's sum; where the second coordinate is not 3 the output's buffer is handed
    back as found, where it is 3 it is left at the stored block. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi_eq1 V c t.succ, Phi_eq1 V c t.castSucc, Fin.val_succ, Fin.coe_castSucc, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3 V c t h1]
    rw [acc1_step V c t h0, PhiS1_pos V c _ hz]
    iintro ⟨⟨HS0, HR⟩, Ho, ⟨%d0, H0⟩, ⟨%d1, H1⟩, ⟨%d2, H2⟩, ⟨%d3, H3⟩⟩
    iapply (kernelRun1_C c (grid1.coords t) _ _ _ _ _ _ _ _ _ _ (fun h => h0 ((hcond1_0 t).mp h)) ((hcond1_1 t).mpr h1)
      (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 HR]
    · isplitl [HS0]; · iexact HS0
      iexact HR
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 4 = 0
    · rw [acc1_reset V c t h0]
      by_cases hz : t.val = 0
      · rw [PhiS1_of_zero V c _ hz]
        iintro ⟨HΦ, Ho, ⟨%d0, H0⟩, ⟨%d1, H1⟩, ⟨%d2, H2⟩, ⟨%d3, H3⟩⟩
        ihave HΦ' := (PhiA1_elim (F := F) c) $$ HΦ
        icases HΦ' with ⟨HS0, HR⟩
        iapply (kernelRun1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 HR]
        · isplitl [HS0]; · iexact HS0
          iexact HR
        isplitl [Ho]; · iexact Ho
        isplitl [H0]; · iexact H0
        isplitl [H1]; · iexact H1
        isplitl [H2]; · iexact H2
        iexists _; iexact H3
      · rw [PhiS1_pos V c _ hz]
        iintro ⟨⟨HS0, HR⟩, Ho, ⟨%d0, H0⟩, ⟨%d1, H1⟩, ⟨%d2, H2⟩, ⟨%d3, H3⟩⟩
        iapply (kernelRun1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexists _; iexact HS0
        iintro ⟨H0, H1, H2, H3, HS0⟩
        isplitl [HS0 HR]
        · isplitl [HS0]; · iexact HS0
          iexact HR
        isplitl [Ho]; · iexact Ho
        isplitl [H0]; · iexact H0
        isplitl [H1]; · iexact H1
        isplitl [H2]; · iexact H2
        iexists _; iexact H3
    · have hz : t.val ≠ 0 := by omega
      rw [acc1_step V c t h0, PhiS1_pos V c _ hz]
      iintro ⟨⟨HS0, HR⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR]
      · isplitl [HS0]; · iexact HS0
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Run.lean ====
/-
  The run of the whole program: its two kernel regions one after the other.

  The contents of the core's buffers at each boundary are a fold from the launch memory: region 0 is entered at the
  launch contents and leaves its arrays at what its write-backs make of them (the three inputs as entered, the two
  outputs written block by block); region 1 is entered at those contents and leaves the result array likewise.
  Every other buffer passes a region unchanged.  Each region is a segment over the thread state "every unscoped buffer
  at the boundary's contents, the generator register at some state, nothing owed"; region 1's invariant follows its
  accumulator from point to point and is entered from, and returned to, the plain invariant that forgets it.
  At the end every unscoped buffer is read against the last boundary's contents.
-/
import proofs.«101077_j30270929502676_2_alg».proof.Proof.K.R0
import proofs.«101077_j30270929502676_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what region 0 is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what region 1 is entered from. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the boundaries hold at the arrays the claims speak of -/

/-- Region 1 is entered with the adjacency as launched: region 0 only reads it. -/
theorem V1_main_arg1 (c : Dev nD) : V1 m ρ c main_arg1 = m ((c : Thread nD τ).loc main_arg1) :=
  (W1_arr m ρ c 0).trans (((dat0 (V0 m ρ) c).arrAt_in 0 rfl _).trans (A_eq0 (V0 m ρ) c 0))
/-- Region 1 is entered with the scaled features region 0 wrote. -/
theorem V1_main_v0_1 (c : Dev nD) : V1 m ρ c main_v0_1 = (dat0 (V0 m ρ) c).arrAt 4 cfg0.N := W1_arr m ρ c 4
/-- Region 1 is entered with the scales region 0 wrote. -/
theorem V1_main_v0_0 (c : Dev nD) : V1 m ρ c main_v0_0 = (dat0 (V0 m ρ) c).arrAt 3 cfg0.N := W1_arr m ρ c 3

/-- The result array at the end is what region 1's write-backs leave. -/
theorem W2_main_v1 (c : Dev nD) : W2 m ρ c (Proc.devRef .tc main_v1) = (dat1 (V1 m ρ) c).arrAt 3 cfg1.N := W2_arr m ρ c 3
/-- The features end as launched: region 0 only reads them, region 1 does not touch them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = m ((c : Thread nD τ).loc main_arg0) := (W1_arr m ρ c 1).trans (((dat0 (V0 m ρ) c).arrAt_in 1 rfl _).trans (A_eq0 (V0 m ρ) c 1))
/-- The adjacency ends as launched: both regions only read it. -/
theorem W2_main_arg1 (c : Dev nD) : W2 m ρ c (Proc.devRef .tc main_arg1) = m ((c : Thread nD τ).loc main_arg1) :=
  (W2_arr m ρ c 0).trans ((((dat1 (V1 m ρ) c).arrAt_in 0 rfl _).trans (A_eq1 (V1 m ρ) c 0)).trans (V1_main_arg1 m ρ c))
/-- The weights end as launched: region 0 only reads them, region 1 does not touch them. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := (W1_arr m ρ c 2).trans (((dat0 (V0 m ρ) c).arrAt_in 2 rfl _).trans (A_eq0 (V0 m ρ) c 2))

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`; its invariant, which
    follows the accumulator, is entered from the plain one and returns to it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    exact (show _ ⊢ (Pipeline.ΦA spec1 c : sProp 𝕄) from by
      unfold Pipeline.ΦA
      iintro ⟨Hp, -, Hr⟩
      isplitl [Hr]; · iexact Hr
      iexact Hp).trans (hin1 (V1 m ρ) c)
  hout c := by
    rw [Pipeline.ownSems0_none, show (pdats m ρ 1 c).Φ (Fin.last _) = (dat1 (V1 m ρ) c).Φ (Fin.last cfg1.N) from rfl]
    exact (hout1 (V1 m ρ) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order. -/
abbrev segs : List (Pipeline.Seg (pcfgs (F := F)) adm (pdats m ρ) () defs₀ 𝒱₀ L lv) :=
  [ .region (reg0 m ρ), .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result named: the result array ends at what region 1's write-backs leave, the arguments as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.Kernel.Hand

end
-- ==== Proof.KI.R0.lean ====
/-
  The first of the two kernels (the row degrees and the scaled features), as far as memory goes, at any float
  instance: what the body finds in each input window's buffer at a grid point (the window's block of its array),
  what it leaves in each output window's buffer (the stored payload, a function of the input blocks alone), and
  the proof data and body obligation of its pipeline, at ANY contents `V` of the core's buffers when the kernel is
  entered.

  Point `t` of the 16 handles rows 512 t … 512 t + 511: window 0 is that band of the adjacency, window 1 that band
  of the features, window 2 the whole weight matrix (moved once, at the first point, and left in place), window 3
  the band's column of reciprocal square-root degrees and window 4 the band of scaled features. Each output is
  stored once, whole, so its buffer after the body is the payload itself.
-/
import proofs.«101077_j30270929502676_2_alg».proof.Proof.Gen.KernelIdeal.Launch
import proofs.«101077_j30270929502676_2_alg».proof.Proof.Gen.KernelIdeal.Skeleton
import proofs.«101077_j30270929502676_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 × 8192 entries: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the kernel is entered
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency band's buffer holds the band at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The feature band's buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weights' buffer likewise: moved at the first point only, its block index never moves afterwards, so the
    buffer still holds the one block at every later point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S512x8192 := Rect.unit (s := S512x8192) ![0, 0] S512x8192.size inb_S512x8192_S512x8192_0_0
abbrev r0_1 : Rect S512x1 := Rect.unit (s := S512x1) ![0, 0] S512x1.size inb_S512x1_S512x1_0_0
abbrev r0_2 : Rect S512x512 := Rect.unit (s := S512x512) ![0, 0] S512x512.size inb_S512x512_S512x512_0_0
abbrev r0_3 : Rect S512x256 := Rect.unit (s := S512x256) ![0, 0] S512x256.size inb_S512x256_S512x256_0_0

/-! ## What the body leaves in each output window's buffer -/

/-- The degree column's buffer after the body, from the adjacency band: the one whole store of the reciprocal
    square roots of the band's row sums plus one plus the small literal. -/
def out0_3 (x0 : Vec F S512x8192 .f32) : Vec F S512x1 .f32 :=
  View.canon [⟨r0_1, k0_pay1 (View.ld x0 r0_0)⟩]

/-- The scaled features' buffer after the body, from the three input blocks: the one whole store of the band of
    features times the weights, each row scaled by its reciprocal square-root degree. -/
def out0_4 (x0 : Vec F S512x8192 .f32) (x1 : Vec F S512x512 .f32) (x2 : Vec F S512x256 .f32) : Vec F S512x256 .bf16 :=
  View.canon [⟨r0_3, k0_pay2 (View.ld x0 r0_0) (View.ld x1 r0_2) (View.ld x2 r0_3)⟩]

/-- The one store covers the column. -/
theorem cover0_3 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-- The one store covers the band. -/
theorem cover0_4 (p0 : Vec F S512x256 .bf16) (y : S512x256.Idx) :
    ∃ pc ∈ ([⟨r0_3, p0⟩] : List (View.Piece (Elt F) S512x256 .bf16)), y ∈ pc.1.set :=
  View.cover_of_tiled [⟨r0_3, p0⟩] S512x256.size (by rfl) y

/-! ## The body's triple -/

set_option maxHeartbeats 1000000 in
/-- The kernel body on whole staging memrefs, the inputs' at read contents `x0`, `x1`, `x2` and the outputs' at anything,
    runs to the continuation holding the inputs' as they were and each output's at its payload of the inputs'. -/
theorem sound_kernel0 (c : Dev nD) (E : Set ℕ) (i : grid0.Coords) (arg1 : Memref sig .tc .vmem S512x8192 .f32) (harg1 : arg1.IsWhole) (arg2 : Memref sig .tc .vmem S512x512 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S512x256 .bf16) (harg5 : arg5.IsWhole)
    (x0 : Vec F S512x8192 .f32) (x1 : Vec F S512x512 .f32) (x2 : Vec F S512x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__degnorm_kernel i arg1 harg1 arg2 harg2 arg3 harg3 arg4 harg4 arg5 harg5) K := by
  simp only [cc0__degnorm_kernel_eq_skeleton]; unfold cc0__degnorm_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the first kernel's pipeline on core `c`: the arrays as the kernel finds them; after the body at
    point `t` each input's buffer at its block and each output's at its payload of the input blocks; the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, moved there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The input arrays are never written back -/

/-- After the kernel's run the three input arrays — the adjacency, the features, the weights, in the order the
    windows stage them — hold what they held at entry. -/
theorem arr_in0 (c : Dev nD) : (dat0 V c).arrAt 0 cfg0.N = V c main_arg1 ∧ (dat0 V c).arrAt 1 cfg0.N = V c main_arg0
    ∧ (dat0 V c).arrAt 2 cfg0.N = V c main_arg2 :=
  ⟨((dat0 V c).arrAt_in 0 rfl _).trans (A_eq0 V c 0), ((dat0 V c).arrAt_in 1 rfl _).trans (A_eq0 V c 1),
    ((dat0 V c).arrAt_in 2 rfl _).trans (A_eq0 V c 2)⟩

end Cert.KernelIdeal.Hand

end
-- ==== Proof.KI.R1Defs.lean ====
/-
  The second region (the aggregation kernel on its 8 × 4 grid), frame half: the proof data of its pipeline with
  the accumulator it carries in scratch TRACKED from point to point.

  Point t is (i, k) = (t / 4, t % 4).  The body resets the accumulator to zeros when k = 0, always adds the
  product of the point's 1024 × 2048 block of the adjacency with rows 2048 k … of the scaled features, and when
  k = 3 stores  max ((acc + rows 1024 i … of the scaled features) * rows 1024 i … of the scales, 0)  into the
  output block, which the pipeline writes back at those points only.  So after point t the accumulator holds the
  partial sum over the column blocks 0 … k of row block i (`acc1`), and the invariant between points says so.
  Everything is stated at a parameter `V`: the buffers' contents when the region is entered.
-/
import proofs.«101077_j30270929502676_2_alg».proof.Proof.Gen.KernelIdeal.Launch
import proofs.«101077_j30270929502676_2_alg».proof.Proof.Gen.KernelIdeal.Skeleton
import proofs.«101077_j30270929502676_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the second grid coordinate is zero), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the second grid coordinate is three). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output window is idle: nothing is stored into it, -/
theorem idleAt1_3 : ∀ t : Fin cfg1.N, ¬cond1_1 (grid1.coords t) → cfg1.idle 3 (grid1.coords t) = true := by decide +kernel
/-- and its block is not written back. -/
theorem noFlush1_3 : ∀ t : Fin cfg1.N, ¬cond1_1 (grid1.coords t) → (cfg1.win 3).flush t = false := by decide +kernel
/-- Where it holds the window is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x256 .f32 := Memref.whole cc1_scratch0

/-! ## The body's accesses of the two whole-array windows -/

/-- Rows 2048 k … 2048 k + 2047 of the scaled features (all 256 columns). -/
abbrev rB1 (i : grid1.Coords) : Rect S8192x256 := Rect.unit (s := S8192x256) (k1_off1 i) S2048x256.size (k1_off1_inb i)
/-- Rows 1024 i … 1024 i + 1023 of the scaled features. -/
abbrev rB2 (i : grid1.Coords) (h : k1_cond2 i = 1#1) : Rect S8192x256 := Rect.unit (s := S8192x256) (k1_off2 i) S1024x256.size (k1_off2_inb i h)
/-- Rows 1024 i … 1024 i + 1023 of the scales. -/
abbrev rD3 (i : grid1.Coords) (h : k1_cond2 i = 1#1) : Rect S8192x1 := Rect.unit (s := S8192x1) (k1_off3 i) S1024x1.size (k1_off3_inb i h)

/-! ## The region invariant, the accumulator split off -/

/-- A scoped buffer whole at some contents. -/
abbrev heldAny (c : Dev nD) (b : Ref sig .tc) : sProp 𝕄 :=
  iprop(∃ f : Buf (Elt F) ((c : Thread nD τ).loc b), ((c : Thread nD τ).loc b) ↦{fullShare} f)

/-- What rides beside the accumulator: the first region's staging buffers at anything, the generator register at
    some state. -/
def rest1 (c : Dev nD) : sProp 𝕄 :=
  iprop(heldAny (F := F) c cc0_stg0_0 ∗ heldAny (F := F) c cc0_stg0_1 ∗ heldAny (F := F) c cc0_stg1_0 ∗ heldAny (F := F) c cc0_stg1_1
    ∗ heldAny (F := F) c cc0_stg2_0 ∗ heldAny (F := F) c cc0_stg3_0 ∗ heldAny (F := F) c cc0_stg3_1 ∗ heldAny (F := F) c cc0_stg4_0
    ∗ heldAny (F := F) c cc0_stg4_1 ∗ (∃ r, prngReg c r))

/-- The class invariant is the accumulator at anything beside the rest, -/
theorem PhiA1_elim (c : Dev nD) :
    (Pipeline.ΦA spec1 c : sProp 𝕄) ⊢ iprop((∃ d, owns (c : Thread nD τ) scM1_0 fullShare d) ∗ rest1 (F := F) c) := by
  unfold Pipeline.ΦA rest1; rw [scopedRest1_eq]; simp only [scM1_0, owns_whole]
  iintro ⟨⟨R1, R2, R3, R4, R5, R6, R7, R8, R9, HS⟩, Hg⟩
  isplitl [HS]; · iexact HS
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Hg

/-- and conversely. -/
theorem PhiA1_intro (c : Dev nD) :
    iprop((∃ d, owns (c : Thread nD τ) scM1_0 fullShare d) ∗ rest1 (F := F) c) ⊢ (Pipeline.ΦA spec1 c : sProp 𝕄) := by
  unfold Pipeline.ΦA rest1; rw [scopedRest1_eq]; simp only [scM1_0, owns_whole]
  iintro ⟨HS, R1, R2, R3, R4, R5, R6, R7, R8, R9, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

section Region
-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- One point's step: the accumulator after the body at position `n`, from what it held when the product was
    added (`prev`): `prev` plus the product of the point's adjacency block with its rows of the scaled features. -/
def accStep1 (c : Dev nD) (n : ℕ) (prev : Vec F S1024x256 .f32) : Vec F S1024x256 .f32 :=
  if h : n < cfg1.N then
    k1_pay2 (iblk1 V c 0 ⟨n, h⟩) (View.ld (iblk1 V c 1 ⟨n, h⟩) (rB1 (grid1.coords ⟨n, h⟩))) prev
  else prev

/-- THE ACCUMULATION. What the scratch accumulator holds after the body at position `n`: the step from zeros at a
    point with k = 0, from what the point before left elsewhere. -/
def acc1 (c : Dev nD) : ℕ → Vec F S1024x256 .f32
  | 0 => accStep1 V c 0 k1_pay1
  | n + 1 => accStep1 V c (n + 1) (if (n + 1) % 4 = 0 then k1_pay1 else acc1 c n)

theorem acc1_eq (c : Dev nD) (t : Fin cfg1.N) :
    acc1 V c t.val = k1_pay2 (iblk1 V c 0 t) (View.ld (iblk1 V c 1 t) (rB1 (grid1.coords t)))
      (if t.val % 4 = 0 then k1_pay1 else acc1 V c (t.val - 1)) := by
  obtain ⟨n, hn⟩ := t
  cases n with
  | zero =>
    show acc1 V c 0 = k1_pay2 _ _ (if 0 % 4 = 0 then k1_pay1 else acc1 V c (0 - 1))
    rw [if_pos (Nat.zero_mod 4), acc1, accStep1]
    exact dif_pos hn
  | succ n =>
    show acc1 V c (n + 1) = k1_pay2 _ _ (if (n + 1) % 4 = 0 then k1_pay1 else acc1 V c n)
    rw [acc1, accStep1]
    exact dif_pos hn

/-- At a point with k = 0: from zeros. -/
theorem acc1_reset (c : Dev nD) (t : Fin cfg1.N) (h : t.val % 4 = 0) :
    acc1 V c t.val = k1_pay2 (iblk1 V c 0 t) (View.ld (iblk1 V c 1 t) (rB1 (grid1.coords t))) k1_pay1 := by
  rw [acc1_eq, if_pos h]
/-- Elsewhere: from what the point before left. -/
theorem acc1_step (c : Dev nD) (t : Fin cfg1.N) (h : ¬t.val % 4 = 0) :
    acc1 V c t.val = k1_pay2 (iblk1 V c 0 t) (View.ld (iblk1 V c 1 t) (rB1 (grid1.coords t))) (acc1 V c (t.val - 1)) := by
  rw [acc1_eq, if_neg h]

/-! ## What the output's buffer holds after each point -/

/-- At a point with k = 3 the stored block: the accumulator plus the row block's own scaled features, scaled,
    clamped at zero. Elsewhere the window is idle and not written back, and what is named here is consulted by
    nothing (zeros, to have a name). -/
def out1_3 (c : Dev nD) (t : Fin cfg1.N) : Vec F S1024x256 .f32 :=
  if h : t.val % 4 = 3 then
    k1_pay3 (View.ld (iblk1 V c 1 t) (rB2 (grid1.coords t) ((hcond1_1 t).mpr h)))
      (View.ld (iblk1 V c 2 t) (rD3 (grid1.coords t) ((hcond1_1 t).mpr h))) (acc1 V c t.val)
  else k1_pay1

/-! ## The tracked invariant -/

/-- Before position `n`: before the first point the class invariant (the accumulator at anything); afterwards the
    accumulator at what the point before left, beside the rest. -/
def PhiS1 (c : Dev nD) : ℕ → sProp 𝕄
  | 0 => Pipeline.ΦA spec1 c
  | n + 1 => iprop(owns (c : Thread nD τ) scM1_0 fullShare (acc1 V c n) ∗ rest1 (F := F) c)

theorem PhiS1_zero (c : Dev nD) : PhiS1 V c 0 = Pipeline.ΦA spec1 c := rfl
theorem PhiS1_succ (c : Dev nD) (n : ℕ) :
    PhiS1 V c (n + 1) = iprop(owns (c : Thread nD τ) scM1_0 fullShare (acc1 V c n) ∗ rest1 (F := F) c) := rfl
theorem PhiS1_pos (c : Dev nD) (n : ℕ) (hz : n ≠ 0) :
    PhiS1 V c n = iprop(owns (c : Thread nD τ) scM1_0 fullShare (acc1 V c (n - 1)) ∗ rest1 (F := F) c) := by
  cases n with
  | zero => exact absurd rfl hz
  | succ n => rfl

/-! ## The pipeline's proof data -/

/-- The proof data of the region's pipeline on core `c`: the arrays as the region finds them; after the body each
    input's buffer at its block, the output's at `out1_3`; the tracked invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val
  q _ := fullShare
  owed _ := 0

theorem A_eq1 (c : Dev nD) (w : Fin cfg1.W) : (dat1 V c).A w = V c (Pipeline.arrRef spec1 w) := by
  dsimp only [dat1]

theorem Phi_eq1 (c : Dev nD) (t : Fin (cfg1.N + 1)) : (dat1 V c).Φ t = PhiS1 V c t.val := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) : (dat1 V c).after 3 t = out1_3 V c t := by dsimp only [dat1]

/-- What the pipeline writes back at a point with k = 3. -/
theorem after1_3 (c : Dev nD) (t : Fin cfg1.N) (h : t.val % 4 = 3) :
    (dat1 V c).after 3 t = k1_pay3 (View.ld (iblk1 V c 1 t) (rB2 (grid1.coords t) ((hcond1_1 t).mpr h)))
      (View.ld (iblk1 V c 2 t) (rD3 (grid1.coords t) ((hcond1_1 t).mpr h))) (acc1 V c t.val) := by
  rw [after1_3']; unfold out1_3; rw [dif_pos h]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The invariant against the class invariant -/

/-- What the launch hands the region is the invariant before the first point. -/
theorem hin1 (c : Dev nD) : (Pipeline.ΦA spec1 c : sProp 𝕄) ⊢ (dat1 V c).Φ 0 := by
  rw [Phi_eq1]; exact Idealize.SL.BI.Entails.refl _

/-- After any point the invariant gives the class invariant back: the accumulator's named contents are forgotten. -/
theorem Phi_out1 (c : Dev nD) (t : Fin (cfg1.N + 1)) (ht : t.val ≠ 0) : (dat1 V c).Φ t ⊢ (Pipeline.ΦA spec1 c : sProp 𝕄) := by
  rw [Phi_eq1, PhiS1_pos V c _ ht]
  exact (show iprop(owns (c : Thread nD τ) scM1_0 fullShare (acc1 V c (t.val - 1)) ∗ rest1 (F := F) c)
      ⊢ (iprop((∃ d, owns (c : Thread nD τ) scM1_0 fullShare d) ∗ rest1 (F := F) c) : sProp 𝕄) from by
    iintro ⟨HS, HR⟩
    isplitl [HS]
    · iexists _; iexact HS
    iexact HR).trans (PhiA1_intro c)

theorem hout1 (c : Dev nD) : (dat1 V c).Φ (Fin.last cfg1.N) ⊢ (Pipeline.ΦA spec1 c : sProp 𝕄) :=
  Phi_out1 V c _ (by rw [Fin.val_last]; have : cfg1.N = 32 := N_1; omega)

end Region

end Cert.KernelIdeal.Hand

end
-- ==== Proof.KI.R1RunA.lean ====
/-
  The aggregation kernel's body, run whole, at the points of case A (the second grid coordinate is 0: the first
  conditional is taken, the second is not).  The accumulator, found at anything, is first set to zeros and then
  left at zeros plus the product of the adjacency block with its rows of the scaled features; every store fills
  its whole buffer, so what the accumulator holds afterwards is the last stored value, and the load between the
  two stores reads the zeros just stored.  The output's buffer, idle here, is handed back untouched.
-/
import proofs.«101077_j30270929502676_2_alg».proof.Proof.KI.R1Defs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the accumulator, found at anything, is left at zeros plus the product of the adjacency block `x0` with
    its rows of the scaled features `x1`; the output's buffer, idle here, is handed back untouched. -/
theorem kernelRun1_A (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S8192x1 .f32) (harg4 : arg4.IsWhole)
    (arg5 : Memref sig .tc .vmem S1024x256 .f32) (harg5 : arg5.IsWhole)
    (arg6 : Memref sig .tc .vmem S1024x256 .f32) (harg6 : arg6.IsWhole)
    (hc0 : cond1_0 i) (hc1 : ¬cond1_1 i)
    (x0 : Vec F S1024x2048 .f32) (x1 : Vec F S8192x256 .bf16) (x2 : Vec F S8192x1 .f32)
    (xi3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (rB1 i)) k1_pay1)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  have hz2 : (![0, 0] : Fin 2 → Nat) = fun _ => 0 := funext fun a => by fin_cases a <;> rfl
  sl_unfold_run_names
  have hcov : ∀ (p q : Vec F S1024x256 .f32) (y : S1024x256.Idx),
      ∃ pc ∈ ([⟨Rect.unit (s := S1024x256) ![0, 0] S1024x256.size inb_S1024x256_S1024x256_0_0, p⟩,
          ⟨Rect.unit (s := S1024x256) ![0, 0] S1024x256.size inb_S1024x256_S1024x256_0_0, q⟩] : List (View.Piece (Elt F) S1024x256 .f32)), y ∈ pc.1.set :=
    fun p q y => ⟨_, List.mem_cons_self .., View.mem_set_unit_zero hz2 inb_S1024x256_S1024x256_0_0 y⟩
  refine (View.read_writes_eq_canon _ _ _ (hcov _ _)).trans ?_
  refine (View.canon_cons_unit_zero hz2 _ _ _).trans ?_
  rw [View.readCov_unit_zero (S := S1024x256) _ hz2]
  simp only [View.readAt_eq_ld, harg2.read_unread, harg3.read_unread,
    View.ld_unit_zero (S := S1024x2048) hz2]

end Cert.KernelIdeal.Hand

end
-- ==== Proof.KI.R1RunB.lean ====
/-
  The aggregation kernel's body, run whole, at the points of case B (the second grid coordinate is 1 or 2: neither conditional is taken).
  On whole staging memrefs holding the inputs' contents the body runs to the continuation with the inputs as
  they were and the accumulator at the sum it leaves; every store fills its whole buffer, so what a buffer holds
  afterwards is the stored value itself.
-/
import proofs.«101077_j30270929502676_2_alg».proof.Proof.KI.R1Defs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the accumulator, found at `xs0`, is left at `xs0` plus the product of the adjacency block `x0` with its
    rows of the scaled features `x1`; the output's buffer, idle here, is handed back untouched. -/
theorem kernelRun1_B (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S8192x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : ¬cond1_1 i)
    (x0 : Vec F S1024x2048 .f32) (x1 : Vec F S8192x256 .bf16) (x2 : Vec F S8192x1 .f32) (xs0 : Vec F S1024x256 .f32)
    (xi3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 x0 (View.ld x1 (rB1 i)) xs0)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  have hz2 : (![0, 0] : Fin 2 → Nat) = fun _ => 0 := funext fun a => by fin_cases a <;> rfl
  have hcov : ∀ (p : Vec F S1024x256 .f32) (y : S1024x256.Idx),
      ∃ pc ∈ ([⟨Rect.unit (s := S1024x256) ![0, 0] S1024x256.size inb_S1024x256_S1024x256_0_0, p⟩] : List (View.Piece (Elt F) S1024x256 .f32)), y ∈ pc.1.set :=
    fun p y => ⟨_, List.mem_singleton_self _, View.mem_set_unit_zero hz2 inb_S1024x256_S1024x256_0_0 y⟩
  refine (View.read_writes_eq_canon _ _ _ (hcov _)).trans ?_
  refine (View.canon_unit_zero hz2 _ _).trans ?_
  simp only [View.readAt_eq_ld, harg2.read_unread, harg3.read_unread, harg6.read_unread,
    View.ld_unit_zero (S := S1024x2048) hz2, View.ld_unit_zero (S := S1024x256) hz2]

end Cert.KernelIdeal.Hand

end
-- ==== Proof.KI.R1RunC.lean ====
/-
  The aggregation kernel's body, run whole, at the points of case C (the second grid coordinate is 3: the first
  conditional is not taken, the second is).  The accumulator, found at the partial sum the point before left, is
  left at that sum plus the product of the adjacency block with its rows of the scaled features; the output's
  buffer, found at anything, is stored whole with the accumulator plus the row block's own scaled features,
  scaled by the row block's scales and clamped at zero.  Every store fills its whole buffer, so what a buffer
  holds afterwards is the stored value itself, and the load of the accumulator after its store reads that value.
-/
import proofs.«101077_j30270929502676_2_alg».proof.Proof.KI.R1Defs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the accumulator, found at `xs0`, is left at `xs0` plus the product of the adjacency block `x0` with its
    rows of the scaled features `x1`; the output's buffer, found at anything, is left at that sum plus the row block's own
    rows of `x1`, times the row block's rows of the scales `x2`, clamped at zero. -/
theorem kernelRun1_C (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S8192x1 .f32) (harg4 : arg4.IsWhole)
    (arg5 : Memref sig .tc .vmem S1024x256 .f32) (harg5 : arg5.IsWhole)
    (arg6 : Memref sig .tc .vmem S1024x256 .f32) (harg6 : arg6.IsWhole)
    (hc0 : ¬cond1_0 i) (hc1 : cond1_1 i)
    (x0 : Vec F S1024x2048 .f32) (x1 : Vec F S8192x256 .bf16) (x2 : Vec F S8192x1 .f32) (xs0 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (View.ld x1 (rB2 i hc1)) (View.ld x2 (rD3 i hc1)) (k1_pay2 x0 (View.ld x1 (rB1 i)) xs0))
            ∗ owns (c : Thread nD τ) arg6 fullShare (k1_pay2 x0 (View.ld x1 (rB1 i)) xs0)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  have hz2 : (![0, 0] : Fin 2 → Nat) = fun _ => 0 := funext fun a => by fin_cases a <;> rfl
  have hcov : ∀ (p : Vec F S1024x256 .f32) (y : S1024x256.Idx),
      ∃ pc ∈ ([⟨Rect.unit (s := S1024x256) ![0, 0] S1024x256.size inb_S1024x256_S1024x256_0_0, p⟩] : List (View.Piece (Elt F) S1024x256 .f32)), y ∈ pc.1.set :=
    fun p y => ⟨_, List.mem_singleton_self _, View.mem_set_unit_zero hz2 inb_S1024x256_S1024x256_0_0 y⟩
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    refine (View.read_writes_eq_canon _ _ _ (hcov _)).trans ?_
    refine (View.canon_unit_zero hz2 _ _).trans ?_
    rw [View.readCov_unit_zero (S := S1024x256) _ hz2]
    simp only [View.readAt_eq_ld, harg2.read_unread, harg3.read_unread, harg4.read_unread, harg6.read_unread,
      View.ld_unit_zero (S := S1024x2048) hz2, View.ld_unit_zero (S := S1024x256) hz2]
  iexists _; isplitr
  swap; · iexact HS0
  ipureintro
  sl_unfold_run_names
  refine (View.read_writes_eq_canon _ _ _ (hcov _)).trans ?_
  refine (View.canon_unit_zero hz2 _ _).trans ?_
  simp only [View.readAt_eq_ld, harg2.read_unread, harg3.read_unread, harg6.read_unread,
    View.ld_unit_zero (S := S1024x2048) hz2, View.ld_unit_zero (S := S1024x256) hz2]

end Cert.KernelIdeal.Hand

end
-- ==== Proof.KI.R1.lean ====
/-
  The aggregation kernel's body obligation: at every point of the 8 × 4 grid the body, run from the tracked
  invariant and the windows' current buffers, re-establishes the invariant at the next point and leaves each
  buffer as the proof data say.  By cases on the point's position modulo 4 — 0: the accumulator is reset and the
  first product added; 1, 2: a product added; 3: a product added and the output block stored — each case the
  whole-body run of that case.
-/
import proofs.«101077_j30270929502676_2_alg».proof.Proof.KI.R1RunA
import proofs.«101077_j30270929502676_2_alg».proof.Proof.KI.R1RunB
import proofs.«101077_j30270929502676_2_alg».proof.Proof.KI.R1RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffers' contents when the region is entered
variable (V : (c : Dev nD) → (b : Ref sig .tc) → Buf (Elt F) ((c : Thread nD τ).loc b))

theorem PhiS1_of_zero (c : Dev nD) (n : ℕ) (hz : n = 0) : PhiS1 V c n = (Pipeline.ΦA spec1 c : sProp 𝕄) := by
  subst hz; rfl

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's position modulo 4 says which case it
    is in. The invariant hands the body the accumulator at what the point before left (at anything before the first
    point) and takes it back at this point's sum; where the second coordinate is not 3 the output's buffer is handed
    back as found, where it is 3 it is left at the stored block. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi_eq1 V c t.succ, Phi_eq1 V c t.castSucc, Fin.val_succ, Fin.coe_castSucc, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3 V c t h1]
    rw [acc1_step V c t h0, PhiS1_pos V c _ hz]
    iintro ⟨⟨HS0, HR⟩, Ho, ⟨%d0, H0⟩, ⟨%d1, H1⟩, ⟨%d2, H2⟩, ⟨%d3, H3⟩⟩
    iapply (kernelRun1_C c (grid1.coords t) _ _ _ _ _ _ _ _ _ _ (fun h => h0 ((hcond1_0 t).mp h)) ((hcond1_1 t).mpr h1)
      (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 HR]
    · isplitl [HS0]; · iexact HS0
      iexact HR
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 4 = 0
    · rw [acc1_reset V c t h0]
      by_cases hz : t.val = 0
      · rw [PhiS1_of_zero V c _ hz]
        iintro ⟨HΦ, Ho, ⟨%d0, H0⟩, ⟨%d1, H1⟩, ⟨%d2, H2⟩, ⟨%d3, H3⟩⟩
        ihave HΦ' := (PhiA1_elim (F := F) c) $$ HΦ
        icases HΦ' with ⟨HS0, HR⟩
        iapply (kernelRun1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [HS0 HR]
        · isplitl [HS0]; · iexact HS0
          iexact HR
        isplitl [Ho]; · iexact Ho
        isplitl [H0]; · iexact H0
        isplitl [H1]; · iexact H1
        isplitl [H2]; · iexact H2
        iexists _; iexact H3
      · rw [PhiS1_pos V c _ hz]
        iintro ⟨⟨HS0, HR⟩, Ho, ⟨%d0, H0⟩, ⟨%d1, H1⟩, ⟨%d2, H2⟩, ⟨%d3, H3⟩⟩
        iapply (kernelRun1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS0]; · iexists _; iexact HS0
        iintro ⟨H0, H1, H2, H3, HS0⟩
        isplitl [HS0 HR]
        · isplitl [HS0]; · iexact HS0
          iexact HR
        isplitl [Ho]; · iexact Ho
        isplitl [H0]; · iexact H0
        isplitl [H1]; · iexact H1
        isplitl [H2]; · iexact H2
        iexists _; iexact H3
    · have hz : t.val ≠ 0 := by omega
      rw [acc1_step V c t h0, PhiS1_pos V c _ hz]
      iintro ⟨⟨HS0, HR⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 HR]
      · isplitl [HS0]; · iexact HS0
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Run.lean ====
/-
  The run of the whole program: its two kernel regions one after the other.

  The contents of the core's buffers at each boundary are a fold from the launch memory: region 0 is entered at the
  launch contents and leaves its arrays at what its write-backs make of them (the three inputs as entered, the two
  outputs written block by block); region 1 is entered at those contents and leaves the result array likewise.
  Every other buffer passes a region unchanged.  Each region is a segment over the thread state "every unscoped buffer
  at the boundary's contents, the generator register at some state, nothing owed"; region 1's invariant follows its
  accumulator from point to point and is entered from, and returned to, the plain invariant that forgets it.
  At the end every unscoped buffer is read against the last boundary's contents.
-/
import proofs.«101077_j30270929502676_2_alg».proof.Proof.KI.R0
import proofs.«101077_j30270929502676_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what region 0 is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what region 1 is entered from. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the boundaries hold at the arrays the claims speak of -/

/-- Region 1 is entered with the adjacency as launched: region 0 only reads it. -/
theorem V1_main_arg1 (c : Dev nD) : V1 m ρ c main_arg1 = m ((c : Thread nD τ).loc main_arg1) :=
  (W1_arr m ρ c 0).trans (((dat0 (V0 m ρ) c).arrAt_in 0 rfl _).trans (A_eq0 (V0 m ρ) c 0))
/-- Region 1 is entered with the scaled features region 0 wrote. -/
theorem V1_main_v0_1 (c : Dev nD) : V1 m ρ c main_v0_1 = (dat0 (V0 m ρ) c).arrAt 4 cfg0.N := W1_arr m ρ c 4
/-- Region 1 is entered with the scales region 0 wrote. -/
theorem V1_main_v0_0 (c : Dev nD) : V1 m ρ c main_v0_0 = (dat0 (V0 m ρ) c).arrAt 3 cfg0.N := W1_arr m ρ c 3

/-- The result array at the end is what region 1's write-backs leave. -/
theorem W2_main_v1 (c : Dev nD) : W2 m ρ c (Proc.devRef .tc main_v1) = (dat1 (V1 m ρ) c).arrAt 3 cfg1.N := W2_arr m ρ c 3
/-- The features end as launched: region 0 only reads them, region 1 does not touch them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = m ((c : Thread nD τ).loc main_arg0) := (W1_arr m ρ c 1).trans (((dat0 (V0 m ρ) c).arrAt_in 1 rfl _).trans (A_eq0 (V0 m ρ) c 1))
/-- The adjacency ends as launched: both regions only read it. -/
theorem W2_main_arg1 (c : Dev nD) : W2 m ρ c (Proc.devRef .tc main_arg1) = m ((c : Thread nD τ).loc main_arg1) :=
  (W2_arr m ρ c 0).trans ((((dat1 (V1 m ρ) c).arrAt_in 0 rfl _).trans (A_eq1 (V1 m ρ) c 0)).trans (V1_main_arg1 m ρ c))
/-- The weights end as launched: region 0 only reads them, region 1 does not touch them. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := (W1_arr m ρ c 2).trans (((dat0 (V0 m ρ) c).arrAt_in 2 rfl _).trans (A_eq0 (V0 m ρ) c 2))

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`; its invariant, which
    follows the accumulator, is entered from the plain one and returns to it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    exact (show _ ⊢ (Pipeline.ΦA spec1 c : sProp 𝕄) from by
      unfold Pipeline.ΦA
      iintro ⟨Hp, -, Hr⟩
      isplitl [Hr]; · iexact Hr
      iexact Hp).trans (hin1 (V1 m ρ) c)
  hout c := by
    rw [Pipeline.ownSems0_none, show (pdats m ρ 1 c).Φ (Fin.last _) = (dat1 (V1 m ρ) c).Φ (Fin.last cfg1.N) from rfl]
    exact (hout1 (V1 m ρ) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order. -/
abbrev segs : List (Pipeline.Seg (pcfgs (F := F)) adm (pdats m ρ) () defs₀ 𝒱₀ L lv) :=
  [ .region (reg0 m ρ), .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result named: the result array ends at what region 1's write-backs leave, the arguments as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.KernelIdeal.Hand

end
-- ==== Proof.Spec.lean ====
/-
  The mathematics of the claim, over the extended reals, with every index of a literal extent.

  A graph-convolution layer on 8192 nodes: `A` is the 8192 × 8192 adjacency, `X` the 8192 × 512 features,
  `W` the 512 × 256 weights.  Both programs compute  relu (D^(-1/2) (A + I) D^(-1/2) (X W)),  `D` the
  diagonal of the row sums of `A + I`, shifted by one small positive literal `cEps`.

  * One side scales by rows: with  dinv r = rsqrt ((∑ j, A r j) + 1 + cEps)  it forms
    B r q = (X W) r q * dinv r  and then  max (((∑ k, A r k * B k q) + B r q) * dinv r) 0.
  * The other side normalises the matrix first: with  d r = 1 / sqrt ((∑ j, (A r j + eye r j)) + cEps)  it forms
    max (∑ j, ((d r * (A r j + eye r j)) * d j) * (X W) j q) 0.

  Over the reals, when every degree is positive, `rsqrt` and `1 / sqrt` are one function and the two
  expressions are equal by distributivity; both facts need the degrees positive and the entries finite.
-/
import Idealize.ShloMosaic.PureOps.Ideal
import Idealize.ShloMosaic.Lib.ValueIdx

noncomputable section

namespace Cert.GCN

open Idealize.ShloMosaic

/-- The small positive literal both programs add to a degree (the same 32-bit word on both sides). -/
def cEps : EReal := Ideal.ofBits .f32 0x2EDBE6FF#32
/-- The literal one. -/
def cOne : EReal := Ideal.ofBits .f32 0x3F800000#32
/-- The literal zero. -/
def cZero : EReal := Ideal.ofBits .f32 0x00000000#32

variable (A : Fin 8192 → Fin 8192 → EReal) (X : Fin 8192 → Fin 512 → EReal) (W : Fin 512 → Fin 256 → EReal)

/-- The product of the features with the weights. -/
def xw (r : Fin 8192) (q : Fin 256) : EReal := ∑ f : Fin 512, X r f * W f q

/-! ## The side that scales by rows -/

/-- A row's degree: its sum, plus one, plus the small literal. -/
def degK (r : Fin 8192) : EReal := ((∑ j : Fin 8192, A r j) + cOne) + cEps
/-- Its reciprocal square root. -/
def dinvK (r : Fin 8192) : EReal := Ideal.rsqrt (degK A r)
/-- The scaled features. -/
def BK (r : Fin 8192) (q : Fin 256) : EReal := xw X W r q * dinvK A r
/-- The second stage from ANY scaled features `B` and scales `d`: aggregate over the neighbours, add the node's own
    row, scale, clamp at zero. -/
def out1 (A : Fin 8192 → Fin 8192 → EReal) (B : Fin 8192 → Fin 256 → EReal) (d : Fin 8192 → EReal)
    (r : Fin 8192) (q : Fin 256) : EReal :=
  max (((∑ k : Fin 8192, A r k * B k q) + B r q) * d r) cZero
/-- The whole of this side. -/
def outK (r : Fin 8192) (q : Fin 256) : EReal := out1 A (BK A X W) (dinvK A) r q

/-! ## The side that normalises the matrix -/

/-- The identity matrix. -/
def eye (r j : Fin 8192) : EReal := if r = j then 1 else 0
/-- A row's degree: the sum of the row of `A + I`, plus the small literal. -/
def degR (r : Fin 8192) : EReal := (∑ j : Fin 8192, (A r j + eye r j)) + cEps
/-- One over its square root. -/
def dR (r : Fin 8192) : EReal := Ideal.div cOne (Ideal.sqrt (degR A r))
/-- The whole of this side. -/
def outR (r : Fin 8192) (q : Fin 256) : EReal :=
  max (∑ j : Fin 8192, ((dR A r * (A r j + eye r j)) * dR A j) * xw X W j q) cZero

end Cert.GCN

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.Val0.lean ====
/-
  The values the first kernel leaves, over the extended reals: after its sixteen points the degree column holds,
  at row `r`, the reciprocal square root of (row `r`'s sum of the adjacency, plus one, plus the small literal), and the
  scaled features hold, at `(r, q)`, (row `r` of the features times column `q` of the weights) times that row's
  reciprocal square root — the specification's `dinvK` and `BK` of the three arrays as the kernel finds them.

  The road: each stored payload read at an entry of its band (the lane sum is a sum over the 8192 columns; the
  matrix product into a zero accumulator is a sum over the 512 features; a change of float format is the identity
  here); an entry `(p, k)` of point `t`'s band is entry `(512 t + p, k)` of the array; so what point `t` writes back is
  band `t` of ONE function of the arrays; the sixteen bands cover all 8192 rows, row `r` lying in band `r / 512`.
-/
import proofs.«101077_j30270929502676_2_alg».proof.Proof.KI.R0
import proofs.«101077_j30270929502676_2_alg».proof.Proof.Spec
import proofs.«101077_j30270929502676_2_alg».proof.Proof.LibColumnCasts
import proofs.«101077_j30270929502676_2_alg».proof.Proof.LibColumnBroadcast
import Idealize.ShloMosaic.PureOps.Ideal.Laws
import Idealize.ShloMosaic.Lib.ValueIdx
import Idealize.ShloMosaic.Lib.Pipeline.Value

noncomputable section

namespace Cert.KernelIdeal.HandValue0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The band's degree column at an entry: the reciprocal square root of the row's sum plus one plus the small literal. -/
theorem pay1_apply (x0 : Vec Ideal S512x8192 .f32) (p : Fin 512) (u : Fin 1) :
    k0_pay1 (F := Ideal) x0 (ix2 p u)
      = Ideal.rsqrt (((∑ k : Fin 8192, x0 (ix2 p k)) + Cert.GCN.cOne) + Cert.GCN.cEps) := by
  unfold k0_pay1
  show Ideal.rsqrt ((shapeCast S512x1 (multiReduction (F := Ideal) .add [1] S512 x0 0x00000000#32 reduces_S512x8192_S512 (.inl rfl) rfl) shapeCasts_S512_S512x1 (ix2 p u) + Cert.GCN.cOne) + Cert.GCN.cEps) = _
  refine congrArg (fun z => Ideal.rsqrt ((z + Cert.GCN.cOne) + Cert.GCN.cEps)) ?_
  refine (ColumnCasts.shapeCast_a_a1_apply _ shapeCasts_S512_S512x1 p u).trans ?_
  refine (Ideal.multiReduction_add_single x0 0x00000000#32 reduces_S512x8192_S512 (.inl rfl) rfl (ix1 p)).trans ?_
  refine Finset.sum_congr rfl fun k _ => ?_
  refine congrArg x0 ?_
  funext a
  match a with
  | ⟨0, _⟩ => rfl
  | ⟨1, _⟩ => rfl

/-- The band of features times the weights at an entry: the sum over the 512 features. -/
theorem matmul0_apply (l : FVec Ideal S512x512 .bf16) (w : FVec Ideal S512x256 .bf16) (p : Fin 512) (q : Fin 256) :
    matmul (F := Ideal) dot_S512x512_S512x256_S512x256_1_0_0_1_n_n none l w (constant (F := Ideal) S512x256 .f32 0x00000000#32) (ix2 p q)
      = ∑ f : Fin 512, l (ix2 p f) * w (ix2 f q) := by
  refine (Ideal.matmul_constant_zero_apply dot_S512x512_S512x256_S512x256_1_0_0_1_n_n none l w (ix2 p q)).trans ?_
  rw [← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p q) ((ValueIdx.contrEquiv1 dot_S512x512_S512x256_S512x256_1_0_0_1_n_n 512 rfl rfl).symm k) = ix2 p k := funext fun a => Fin.ext (by
    match a with
    | ⟨0, _⟩ =>
      show (dot_S512x512_S512x256_S512x256_1_0_0_1_n_n.lhsIdx (ix2 p q) _ 0).val = p.val
      unfold DotDims.lhsIdx
      rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
      rfl
    | ⟨1, _⟩ => exact (dot_S512x512_S512x256_S512x256_1_0_0_1_n_n.lhsIdx_val_of_single rfl (ix2 p q) _).trans hk)
  have er : dot_S512x512_S512x256_S512x256_1_0_0_1_n_n.rhsIdx (ix2 p q) ((ValueIdx.contrEquiv1 dot_S512x512_S512x256_S512x256_1_0_0_1_n_n 512 rfl rfl).symm k) = ix2 k q := funext fun a => Fin.ext (by
    match a with
    | ⟨0, _⟩ => exact (dot_S512x512_S512x256_S512x256_1_0_0_1_n_n.rhsIdx_val_of_single rfl (ix2 p q) _).trans hk
    | ⟨1, _⟩ =>
      show (dot_S512x512_S512x256_S512x256_1_0_0_1_n_n.rhsIdx (ix2 p q) _ 1).val = q.val
      unfold DotDims.rhsIdx
      rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
      rfl)
  rw [el, er]

/-- The band of scaled features at an entry: the features' row times the weights' column, scaled by the row's
    reciprocal square-root degree. -/
theorem pay2_apply (x0 : Vec Ideal S512x8192 .f32) (x1 : Vec Ideal S512x512 .f32) (x2 : Vec Ideal S512x256 .f32) (p : Fin 512) (q : Fin 256) :
    k0_pay2 (F := Ideal) x0 x1 x2 (ix2 p q)
      = (∑ f : Fin 512, x1 (ix2 p f) * x2 (ix2 f q)) * k0_pay1 (F := Ideal) x0 (ix2 p (0 : Fin 1)) := by
  unfold k0_pay2
  show matmul (F := Ideal) dot_S512x512_S512x256_S512x256_1_0_0_1_n_n none (truncf .bf16 x1 bitsLt_bf16_f32) (truncf .bf16 x2 bitsLt_bf16_f32) (constant (F := Ideal) S512x256 .f32 0x00000000#32) (ix2 p q)
      * broadcastTo S512x256 (k0_pay1 (F := Ideal) x0) broadcasts_S512x1_S512x256 (ix2 p q) = _
  rw [matmul0_apply, ColumnBroadcast.broadcastTo_a1_ab_apply]
  rfl

/-- So a band whose rows are rows of a matrix `A` has, as its degree column, `A`'s reciprocal square-root degrees of those rows. -/
theorem pay1_eq_dinvK (x0 : Vec Ideal S512x8192 .f32) (A : Fin 8192 → Fin 8192 → EReal) (p : Fin 512) (u : Fin 1) (r : Fin 8192)
    (h0 : ∀ k : Fin 8192, x0 (ix2 p k) = A r k) : k0_pay1 (F := Ideal) x0 (ix2 p u) = Cert.GCN.dinvK A r := by
  refine (pay1_apply x0 p u).trans ?_
  unfold Cert.GCN.dinvK Cert.GCN.degK
  exact congrArg (fun z => Ideal.rsqrt ((z + Cert.GCN.cOne) + Cert.GCN.cEps)) (Finset.sum_congr rfl fun k _ => h0 k)

/-- And, its feature rows being rows of `X` and its weights being `W`, the band of scaled features is that of the specification. -/
theorem pay2_eq_BK (x0 : Vec Ideal S512x8192 .f32) (x1 : Vec Ideal S512x512 .f32) (x2 : Vec Ideal S512x256 .f32)
    (A : Fin 8192 → Fin 8192 → EReal) (X : Fin 8192 → Fin 512 → EReal) (W : Fin 512 → Fin 256 → EReal)
    (p : Fin 512) (q : Fin 256) (r : Fin 8192)
    (h0 : ∀ k : Fin 8192, x0 (ix2 p k) = A r k) (h1 : ∀ f : Fin 512, x1 (ix2 p f) = X r f) (h2 : ∀ f : Fin 512, x2 (ix2 f q) = W f q) :
    k0_pay2 (F := Ideal) x0 x1 x2 (ix2 p q) = Cert.GCN.BK A X W r q := by
  refine (pay2_apply x0 x1 x2 p q).trans ?_
  unfold Cert.GCN.BK Cert.GCN.xw
  rw [pay1_eq_dinvK x0 A p (0 : Fin 1) r h0]
  exact congrArg (· * Cert.GCN.dinvK A r) (Finset.sum_congr rfl fun f _ => by rw [h1 f, h2 f])

/-! ## Where a block's entry sits in its array -/

variable (V : (c : Dev nD) → (b : Ref sig .tc) → Buf (Elt Ideal) ((c : Thread nD τ).loc b))

/-- The printed index maps, decided over the 16 points: the adjacency band, the feature band, the degree column and
    the scaled-feature band of point `t` are block `t` along the rows and block 0 along the columns; the weights'
    block is the whole matrix. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry `(p, k)` of point `t`'s adjacency band is entry `(512 t + p, k)` of the adjacency. -/
theorem iblk0_0_apply (c : Dev nD) (t : Fin cfg0.N) (p : Fin 512) (k : Fin 8192) (r : Fin 8192) (hr : r.val = 512 * t.val + p.val) :
    (iblk0 V c 0 t : Vec Ideal S512x8192 .f32) (ix2 p k) = (V c main_arg1 : S8192x8192.Idx → EReal) (ix2 r k) := by
  obtain ⟨e0, e1, -⟩ := idx_facts0 t
  have h : ((cfg0.win 0).blk t).view.emb (ix2 p k) = (ix2 r k : S8192x8192.Idx) := by
    funext a; apply Fin.ext
    match a with
    | ⟨0, _⟩ => show win0_0.index t (0 : Fin 2) * 512 + 1 * p.val = r.val; omega
    | ⟨1, _⟩ => show win0_0.index t (1 : Fin 2) * 8192 + 1 * k.val = k.val; omega
  show V c main_arg1 (((cfg0.win 0).blk t).view.emb (ix2 p k)) = _
  rw [h]

/-- Entry `(p, f)` of point `t`'s feature band is entry `(512 t + p, f)` of the features. -/
theorem iblk0_1_apply (c : Dev nD) (t : Fin cfg0.N) (p : Fin 512) (f : Fin 512) (r : Fin 8192) (hr : r.val = 512 * t.val + p.val) :
    (iblk0 V c 1 t : Vec Ideal S512x512 .f32) (ix2 p f) = (V c main_arg0 : S8192x512.Idx → EReal) (ix2 r f) := by
  obtain ⟨-, -, e0, e1, -⟩ := idx_facts0 t
  have h : ((cfg0.win 1).blk t).view.emb (ix2 p f) = (ix2 r f : S8192x512.Idx) := by
    funext a; apply Fin.ext
    match a with
    | ⟨0, _⟩ => show win0_1.index t (0 : Fin 2) * 512 + 1 * p.val = r.val; omega
    | ⟨1, _⟩ => show win0_1.index t (1 : Fin 2) * 512 + 1 * f.val = f.val; omega
  show V c main_arg0 (((cfg0.win 1).blk t).view.emb (ix2 p f)) = _
  rw [h]

/-- The weights' block at any point is the whole weight matrix. -/
theorem iblk0_2_apply (c : Dev nD) (t : Fin cfg0.N) (f : Fin 512) (q : Fin 256) :
    (iblk0 V c 2 t : Vec Ideal S512x256 .f32) (ix2 f q) = (V c main_arg2 : S512x256.Idx → EReal) (ix2 f q) := by
  obtain ⟨-, -, -, -, e0, e1, -⟩ := idx_facts0 t
  have h : ((cfg0.win 2).blk t).view.emb (ix2 f q) = (ix2 f q : S512x256.Idx) := by
    funext a; apply Fin.ext
    match a with
    | ⟨0, _⟩ => show win0_2.index t (0 : Fin 2) * 512 + 1 * f.val = f.val; omega
    | ⟨1, _⟩ => show win0_2.index t (1 : Fin 2) * 256 + 1 * q.val = q.val; omega
  show V c main_arg2 (((cfg0.win 2).blk t).view.emb (ix2 f q)) = _
  rw [h]

/-! ## From blocks to the arrays -/

theorem hz : (![0, 0] : Fin 2 → Nat) = fun _ => 0 := funext fun a => by fin_cases a <;> rfl

/-- The degree column as one function of the adjacency the kernel finds: each row's reciprocal square-root degree. -/
abbrev dinvArr (c : Dev nD) : S8192x1.Idx → EReal :=
  fun i => Cert.GCN.dinvK (fun a b => V c main_arg1 (ix2 a b)) ⟨(i 0).val, (i 0).isLt⟩

/-- What point `t` writes back to the degree column is block `t` of that function: rows `512 t … 512 t + 511`, each
    summed over the whole row of the adjacency. -/
theorem flushed3_eq (c : Dev nD) (t : Fin cfg0.N) :
    (dat0 V c).flushed 3 t = ((cfg0.win 3).blk t).view.read (Elt Ideal) (dinvArr V c) := by
  show (cfg0.win 3).cut (grid0.coords t) ((dat0 V c).after 3 t) = _
  rw [after0_3]
  unfold out0_3
  rw [View.canon_unit_zero hz]
  simp only [View.ld_unit_zero (S := S512x8192) hz]
  funext j
  obtain ⟨p, u, rfl⟩ : ∃ (p : Fin 512) (u : Fin 1), j = ix2 p u := ⟨j 0, j 1, eq_ix2 j⟩
  have ht : t.val < 16 := lt_of_lt_of_eq t.isLt N_0
  obtain ⟨-, -, -, -, -, -, e0, e1, -⟩ := idx_facts0 t
  have h : ((cfg0.win 3).blk t).view.emb (ix2 p u) = (ix2 (⟨512 * t.val + p.val, by omega⟩ : Fin 8192) u : S8192x1.Idx) := by
    funext a; apply Fin.ext
    match a with
    | ⟨0, _⟩ => show win0_3.index t (0 : Fin 2) * 512 + 1 * p.val = 512 * t.val + p.val; omega
    | ⟨1, _⟩ => show win0_3.index t (1 : Fin 2) * 1 + 1 * u.val = u.val; omega
  show k0_pay1 (F := Ideal) (iblk0 V c 0 t) (ix2 p u) = dinvArr V c (((cfg0.win 3).blk t).view.emb (ix2 p u))
  rw [h]
  exact pay1_eq_dinvK (iblk0 V c 0 t) (fun a b => V c main_arg1 (ix2 a b)) p u (⟨512 * t.val + p.val, by omega⟩ : Fin 8192)
    (fun k => iblk0_0_apply V c t p k _ rfl)

/-- An index of the degree column is in point `t`'s block iff each coordinate is in the block's range on its axis. -/
theorem mem_blk3 (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_0).slice (win0_3.rect t)).set ↔ _
  rw [View.set_slice_whole, Rect.mem_set_unit]
  exact Iff.rfl

/-- Every row of the degree column is written back: row `r` by point `r / 512`. -/
theorem cover3 (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e0, e1, -⟩ := idx_facts0 t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- So after the kernel the degree column holds every row's reciprocal square-root degree. -/
theorem final3 (c : Dev nD) : (dat0 V c).arrAt 3 cfg0.N = dinvArr V c :=
  (dat0 V c).arrAt_eq_of_cover 3 (dinvArr V c) (fun t _ => flushed3_eq V c t) cover3

/-- The degree column after the kernel, at a row. -/
theorem dinv_val (c : Dev nD) (r : Fin 8192) :
    (dat0 (F := Ideal) V c).arrAt 3 cfg0.N (ix2 r (0 : Fin 1)) = Cert.GCN.dinvK (fun a b => V c main_arg1 (ix2 a b)) r :=
  congrFun (final3 V c) (ix2 r (0 : Fin 1))

/-- The scaled features as one function of the three arrays the kernel finds: the features times the weights, each
    row scaled by its reciprocal square-root degree. -/
abbrev scaledArr (c : Dev nD) : S8192x256.Idx → EReal :=
  fun i => Cert.GCN.BK (fun a b => V c main_arg1 (ix2 a b)) (fun a b => V c main_arg0 (ix2 a b)) (fun a b => V c main_arg2 (ix2 a b))
    ⟨(i 0).val, (i 0).isLt⟩ ⟨(i 1).val, (i 1).isLt⟩

/-- What point `t` writes back to the scaled features is block `t` of that function: rows `512 t … 512 t + 511`, each
    from its own row of the features and of the adjacency and from the whole weight matrix. -/
theorem flushed4_eq (c : Dev nD) (t : Fin cfg0.N) :
    (dat0 V c).flushed 4 t = ((cfg0.win 4).blk t).view.read (Elt Ideal) (scaledArr V c) := by
  show (cfg0.win 4).cut (grid0.coords t) ((dat0 V c).after 4 t) = _
  rw [after0_4]
  unfold out0_4
  rw [View.canon_unit_zero hz]
  simp only [View.ld_unit_zero (S := S512x8192) hz, View.ld_unit_zero (S := S512x512) hz, View.ld_unit_zero (S := S512x256) hz]
  funext j
  obtain ⟨p, q, rfl⟩ : ∃ (p : Fin 512) (q : Fin 256), j = ix2 p q := ⟨j 0, j 1, eq_ix2 j⟩
  have ht : t.val < 16 := lt_of_lt_of_eq t.isLt N_0
  obtain ⟨-, -, -, -, -, -, -, -, e0, e1⟩ := idx_facts0 t
  have h : ((cfg0.win 4).blk t).view.emb (ix2 p q) = (ix2 (⟨512 * t.val + p.val, by omega⟩ : Fin 8192) q : S8192x256.Idx) := by
    funext a; apply Fin.ext
    match a with
    | ⟨0, _⟩ => show win0_4.index t (0 : Fin 2) * 512 + 1 * p.val = 512 * t.val + p.val; omega
    | ⟨1, _⟩ => show win0_4.index t (1 : Fin 2) * 256 + 1 * q.val = q.val; omega
  show k0_pay2 (F := Ideal) (iblk0 V c 0 t) (iblk0 V c 1 t) (iblk0 V c 2 t) (ix2 p q) = scaledArr V c (((cfg0.win 4).blk t).view.emb (ix2 p q))
  rw [h]
  exact pay2_eq_BK (iblk0 V c 0 t) (iblk0 V c 1 t) (iblk0 V c 2 t)
    (fun a b => V c main_arg1 (ix2 a b)) (fun a b => V c main_arg0 (ix2 a b)) (fun a b => V c main_arg2 (ix2 a b))
    p q (⟨512 * t.val + p.val, by omega⟩ : Fin 8192)
    (fun k => iblk0_0_apply V c t p k _ rfl) (fun f => iblk0_1_apply V c t p f _ rfl) (fun f => iblk0_2_apply V c t f q)

/-- An index of the scaled features is in point `t`'s block iff each coordinate is in the block's range on its axis. -/
theorem mem_blk4 (t : Fin cfg0.N) (i : S8192x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0_1).slice (win0_4.rect t)).set ↔ _
  rw [View.set_slice_whole, Rect.mem_set_unit]
  exact Iff.rfl

/-- Every row of the scaled features is written back: row `r` by point `r / 512`. -/
theorem cover4 (i : S8192x256.Idx) : ∃ t : Fin cfg0.N, (cfg0.win 4).flush t = true ∧ i ∈ ((cfg0.win 4).blk t).view.set := by
  have hi0 : (i 0).val < 8192 := idx2_lt0 i
  have hi1 : (i 1).val < 256 := idx2_lt1 i
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, e0, e1⟩ := idx_facts0 t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- So after the kernel the scaled features hold, at every entry, the features' row times the weights' column scaled
    by the row's reciprocal square-root degree. -/
theorem final4 (c : Dev nD) : (dat0 V c).arrAt 4 cfg0.N = scaledArr V c :=
  (dat0 V c).arrAt_eq_of_cover 4 (scaledArr V c) (fun t _ => flushed4_eq V c t) cover4

/-- The scaled features after the kernel, at an entry. -/
theorem B_val (c : Dev nD) (r : Fin 8192) (q : Fin 256) :
    (dat0 (F := Ideal) V c).arrAt 4 cfg0.N (ix2 r q)
      = Cert.GCN.BK (fun a b => V c main_arg1 (ix2 a b)) (fun a b => V c main_arg0 (ix2 a b)) (fun a b => V c main_arg2 (ix2 a b)) r q :=
  congrFun (final4 V c) (ix2 r q)

end Cert.KernelIdeal.HandValue0

end
-- ==== Proof.Val1Pure.lean ====
import proofs.«101077_j30270929502676_2_alg».proof.Proof.Gen.KernelIdeal.Skeleton
import proofs.«101077_j30270929502676_2_alg».proof.Proof.Spec
import proofs.«101077_j30270929502676_2_alg».proof.Proof.LibColumnCasts
import proofs.«101077_j30270929502676_2_alg».proof.Proof.LibColumnBroadcast
import Idealize.ShloMosaic.PureOps.Ideal.Laws
import Idealize.ShloMosaic.Lib.ValueIdx
import Idealize.ShloMosaic.Lib.Pipeline.Value
import Idealize.ShloMosaic.Lib.ValueLayout

/-! # The second stage's three stored values, read at an index

The second stage keeps a 1024 × 256 accumulator.  It is reset to zero, then receives, one block of 2048 columns at a
time, the product of a 1024 × 2048 block of the matrix with the matching 2048 rows of the scaled features, and is
finally combined with the block's own rows, scaled by the column of reciprocal square roots and clamped at zero.
Over the extended reals a change of float format is the identity and the matrix product is the plain sum. -/

noncomputable section

namespace Cert.KernelIdeal.HandValue

open Idealize.ShloMosaic Idealize.ShloMosaic.ValueIdx Cert.KernelIdeal

/-- The reset value is zero everywhere. -/
theorem pay1_apply (r : Fin 1024) (q : Fin 256) : Gen.k1_pay1 (F := Ideal) (ix2 r q) = 0 := by
  unfold Gen.k1_pay1
  rw [shapeCast_self]
  exact Ideal.ofBits_zero_f32

/-- The left operand of the contraction is read at the output's row … -/
theorem lhs_row (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
/-- … and at the shared position; -/
theorem lhs_col (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k
/-- the right operand at the shared position … -/
theorem rhs_row (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k
/-- … and at the output's column. -/
theorem rhs_col (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The contraction of a 1024 × 2048 block with a 2048 × 256 block, into the zero accumulator, is the sum over the
    2048 shared positions of the products. -/
theorem matmul_zero_apply (a : FVec Ideal S1024x2048 .bf16) (b : FVec Ideal S2048x256 .bf16) (r : Fin 1024) (q : Fin 256) :
    FloatOps.matmul dot_S1024x2048_S2048x256_S1024x256_1_0_0_1_n_n none a b (constant (F := Ideal) S1024x256 .f32 0x00000000#32) (ix2 r q)
      = ∑ j : Fin 2048, a (ix2 r j) * b (ix2 j q) := by
  rw [Ideal.matmul_constant_zero_apply,
    ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r q)
      ((contrEquiv1 dot_S1024x2048_S2048x256_S1024x256_1_0_0_1_n_n 2048 rfl rfl).symm k) = ix2 r k :=
    funext fun ax => Fin.ext (by
      match ax with
      | ⟨0, _⟩ => exact lhs_row _ _
      | ⟨1, _⟩ => exact (lhs_col _ _).trans hk)
  have er : dot_S1024x2048_S2048x256_S1024x256_1_0_0_1_n_n.rhsIdx (ix2 r q)
      ((contrEquiv1 dot_S1024x2048_S2048x256_S1024x256_1_0_0_1_n_n 2048 rfl rfl).symm k) = ix2 k q :=
    funext fun ax => Fin.ext (by
      match ax with
      | ⟨0, _⟩ => exact (rhs_row _ _).trans hk
      | ⟨1, _⟩ => exact rhs_col _ _)
  rw [el, er]

/-- One accumulation step adds, to the accumulator, the block's row times the rows' column. -/
theorem pay2_apply (a : Vec Ideal S1024x2048 .f32) (b : Vec Ideal S2048x256 .bf16) (acc : Vec Ideal S1024x256 .f32)
    (r : Fin 1024) (q : Fin 256) :
    Gen.k1_pay2 a b acc (ix2 r q) = acc (ix2 r q) + ∑ j : Fin 2048, a (ix2 r j) * b (ix2 j q) := by
  unfold Gen.k1_pay2
  rw [shapeCast_self, shapeCast_self, addf_apply]
  refine congrArg (acc (ix2 r q) + ·) ?_
  exact matmul_zero_apply _ _ r q

/-- The final value adds the block's own row, scales by the row's factor and clamps at zero. -/
theorem pay3_apply (b : Vec Ideal S1024x256 .bf16) (d : Vec Ideal S1024x1 .f32) (acc : Vec Ideal S1024x256 .f32)
    (r : Fin 1024) (q : Fin 256) :
    Gen.k1_pay3 b d acc (ix2 r q) = max ((acc (ix2 r q) + b (ix2 r q)) * d (ix2 r (0 : Fin 1))) Cert.GCN.cZero := by
  unfold Gen.k1_pay3
  rw [shapeCast_self, shapeCast_self, maximumf_apply, mulf_apply, addf_apply,
    ColumnBroadcast.broadcastTo_a1_ab_apply]
  rfl

/-! ## Four blocks of 2048 make the sum over 8192

The accumulator starts at zero and receives the four partial sums in order; over the extended reals addition is a
commutative monoid, so the ordered chain is the whole sum whatever the summands. -/

/-- The sum over `Fin 8192` is the chain  (((0 + S₀) + S₁) + S₂) + S₃  of its four consecutive blocks of 2048. -/
theorem sum_blocks (f : Fin 8192 → EReal) :
    (∑ j : Fin 8192, f j)
      = (((0 + ∑ j : Fin 2048, f ⟨j.val, by omega⟩) + ∑ j : Fin 2048, f ⟨2048 + j.val, by omega⟩)
          + ∑ j : Fin 2048, f ⟨4096 + j.val, by omega⟩) + ∑ j : Fin 2048, f ⟨6144 + j.val, by omega⟩ := by
  let g : ℕ → EReal := fun j => if h : j < 8192 then f ⟨j, h⟩ else 0
  have hg : ∀ (o : ℕ) (ι : Fin 2048 → Fin 8192), (∀ j, (ι j).val = o + j.val) →
      (∑ j : Fin 2048, f (ι j)) = ∑ j ∈ Finset.range 2048, g (o + j) := by
    intro o ι hι
    rw [Finset.sum_range]
    refine Finset.sum_congr rfl fun j _ => ?_
    have hlt : o + j.val < 8192 := by rw [← hι j]; exact (ι j).isLt
    show _ = dite _ _ _
    rw [dif_pos hlt]
    exact congrArg f (Fin.ext (hι j))
  have hall : (∑ j : Fin 8192, f j) = ∑ j ∈ Finset.range 8192, g j := by
    rw [Finset.sum_range]
    refine Finset.sum_congr rfl fun j _ => ?_
    show _ = dite _ _ _
    rw [dif_pos j.isLt]
  rw [hall, hg 0 _ (fun j => (Nat.zero_add _).symm), hg 2048 _ (fun _ => rfl), hg 4096 _ (fun _ => rfl),
    hg 6144 _ (fun _ => rfl), zero_add]
  rw [show Finset.range 8192 = Finset.range (6144 + 2048) from rfl, Finset.sum_range_add,
    show Finset.range 6144 = Finset.range (4096 + 2048) from rfl, Finset.sum_range_add,
    show Finset.range 4096 = Finset.range (2048 + 2048) from rfl, Finset.sum_range_add]
  refine congrArg (· + _) (congrArg (· + _) (congrArg (· + _) ?_))
  exact Finset.sum_congr rfl fun j _ => by rw [Nat.zero_add]

end Cert.KernelIdeal.HandValue

end
-- ==== Proof.Val1.lean ====
import proofs.«101077_j30270929502676_2_alg».proof.Proof.KI.R1Defs
import proofs.«101077_j30270929502676_2_alg».proof.Proof.Val1Pure
import Idealize.ShloMosaic.Lib.Pipeline.Value

/-! # The second stage's value

After the second stage the output array holds, at `(r, q)`,
`max (((∑ k, A r k * B k q) + B r q) * d r) 0`  of the matrix `A`, the scaled features `B` and the scales `d` it
found: the accumulator of row block `i` gathers the four column blocks' partial sums in order, and the point
`(i, 3)` turns it into the output's rows `1024 i ..`, the only rows it writes back. -/

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

/-! ## Where the second stage's blocks sit in their arrays

Point `t` of the 8 × 4 grid is row block `t / 4`, column block `t % 4`.  The matrix window's block there is rows
`1024 (t / 4) ..`, columns `2048 (t % 4) ..`; the scaled features and the scales are windowed whole; the three
rectangles the body loads from them start at row `2048 (t % 4)`, `1024 (t / 4)` and `1024 (t / 4)`. -/

/-- The block indices of the four windows at every point of the grid. -/
theorem idx_facts : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The offsets of the three rectangles the body loads, at every point of the grid. -/
theorem off_facts : ∀ t : Fin cfg1.N, k1_off1 (grid1.coords t) (0 : Fin 2) = 2048 * (t.val % 4) ∧ k1_off1 (grid1.coords t) (1 : Fin 2) = 0
    ∧ k1_off2 (grid1.coords t) (0 : Fin 2) = 1024 * (t.val / 4) ∧ k1_off2 (grid1.coords t) (1 : Fin 2) = 0
    ∧ k1_off3 (grid1.coords t) (0 : Fin 2) = 1024 * (t.val / 4) ∧ k1_off3 (grid1.coords t) (1 : Fin 2) = 0 :=
  (by decide +kernel : ∀ t : Fin grid1.N, _)

variable {F : FTy → Type} [FloatOps F]
variable (V : (c : Dev nD) → (b : Ref sig .tc) → Buf (Elt F) ((c : Thread nD τ).loc b))

/-- The matrix block at point `t`, at `(r, j)`, is the matrix at `(1024 (t / 4) + r, 2048 (t % 4) + j)`. -/
theorem blkA (c : Dev nD) (t : Fin cfg1.N) (r : Fin 1024) (j : Fin 2048) (a : Fin 8192) (b : Fin 8192)
    (ha : a.val = 1024 * (t.val / 4) + r.val) (hb : b.val = 2048 * (t.val % 4) + j.val) :
    iblk1 V c 0 t (ix2 r j) = V c main_arg1 (ix2 a b) := by
  obtain ⟨e0, e1, -⟩ := idx_facts t
  show V c main_arg1 (((cfg1.win 0).blk t).view.emb (ix2 r j)) = _
  refine congrArg (V c main_arg1) (funext fun ax => Fin.ext ?_)
  match ax with
  | ⟨0, _⟩ => show win1_0.index t (0 : Fin 2) * 1024 + 1 * r.val = a.val; rw [e0, ha]; omega
  | ⟨1, _⟩ => show win1_0.index t (1 : Fin 2) * 2048 + 1 * j.val = b.val; rw [e1, hb]; omega

/-- The scaled features' block is the whole array. -/
theorem blkB (c : Dev nD) (t : Fin cfg1.N) (a : Fin 8192) (q : Fin 256) :
    iblk1 V c 1 t (ix2 a q) = V c main_v0_1 (ix2 a q) := by
  obtain ⟨-, -, e2, e3, -⟩ := idx_facts t
  show V c main_v0_1 (((cfg1.win 1).blk t).view.emb (ix2 a q)) = _
  refine congrArg (V c main_v0_1) (funext fun ax => Fin.ext ?_)
  match ax with
  | ⟨0, _⟩ => show win1_1.index t (0 : Fin 2) * 8192 + 1 * a.val = a.val; rw [e2]; omega
  | ⟨1, _⟩ => show win1_1.index t (1 : Fin 2) * 256 + 1 * q.val = q.val; rw [e3]; omega

/-- The scales' block is the whole column. -/
theorem blkD (c : Dev nD) (t : Fin cfg1.N) (a : Fin 8192) (u : Fin 1) :
    iblk1 V c 2 t (ix2 a u) = V c main_v0_0 (ix2 a u) := by
  obtain ⟨-, -, -, -, e4, e5, -⟩ := idx_facts t
  show V c main_v0_0 (((cfg1.win 2).blk t).view.emb (ix2 a u)) = _
  refine congrArg (V c main_v0_0) (funext fun ax => Fin.ext ?_)
  match ax with
  | ⟨0, _⟩ => show win1_2.index t (0 : Fin 2) * 8192 + 1 * a.val = a.val; rw [e4]; omega
  | ⟨1, _⟩ => show win1_2.index t (1 : Fin 2) * 1 + 1 * u.val = u.val; rw [e5]; omega

/-- A load of a rectangle of unit stride reads the contents at the offset plus the coordinate. -/
theorem ld_unit_apply {Val : EltTy → Type} {e : EltTy} {m n m' n' : ℕ} (X : (⟨2, ![m, n]⟩ : Shape).Idx → Val e) (off : Fin 2 → ℕ)
    (inb : ∀ ax, off ax + (⟨2, ![m', n']⟩ : Shape).size ax ≤ (⟨2, ![m, n]⟩ : Shape).size ax)
    (i : Fin m') (j : Fin n') (a : Fin m) (b : Fin n) (ha : a.val = off 0 + i.val) (hb : b.val = off 1 + j.val) :
    View.ld X (Rect.unit (s := ⟨2, ![m, n]⟩) off (⟨2, ![m', n']⟩ : Shape).size inb) (ix2 i j) = X (ix2 a b) := by
  show X _ = _
  refine congrArg X (funext fun ax => Fin.ext ?_)
  match ax with
  | ⟨0, _⟩ => show off 0 + 1 * i.val = a.val; rw [ha]; omega
  | ⟨1, _⟩ => show off 1 + 1 * j.val = b.val; rw [hb]; omega

/-! ## The accumulator, a column block at a time -/

section AtIdeal

variable (W : (c : Dev nD) → (b : Ref sig .tc) → Buf (Elt Ideal) ((c : Thread nD τ).loc b))

/-- The matrix the stage finds, over literal indices; -/
abbrev matA (c : Dev nD) : Fin 8192 → Fin 8192 → EReal := fun a b => W c main_arg1 (ix2 a b)
/-- the scaled features; -/
abbrev matB (c : Dev nD) : Fin 8192 → Fin 256 → EReal := fun a b => W c main_v0_1 (ix2 a b)
/-- the scales. -/
abbrev colD (c : Dev nD) : Fin 8192 → EReal := fun a => W c main_v0_0 (ix2 a (0 : Fin 1))

/-- One point's step read in the arrays: the accumulator's entry plus the sum, over the point's 2048 columns, of
    the matrix row times the scaled features' column. -/
theorem step_sum (c : Dev nD) (t : Fin cfg1.N) (r : Fin 1024) (q : Fin 256) (row : Fin 8192) (ι : Fin 2048 → Fin 8192)
    (hrow : row.val = 1024 * (t.val / 4) + r.val) (hι : ∀ j, (ι j).val = 2048 * (t.val % 4) + j.val)
    (acc : Vec Ideal S1024x256 .f32) :
    k1_pay2 (iblk1 W c 0 t) (View.ld (iblk1 W c 1 t) (rB1 (grid1.coords t))) acc (ix2 r q)
      = acc (ix2 r q) + ∑ j : Fin 2048, matA W c row (ι j) * matB W c (ι j) q := by
  obtain ⟨o0, o1, -⟩ := off_facts t
  refine (pay2_apply _ _ _ r q).trans ?_
  refine congrArg (acc (ix2 r q) + ·) (Finset.sum_congr rfl fun j _ => ?_)
  refine congr (congrArg HMul.hMul (blkA W c t r j row (ι j) hrow (hι j))) ?_
  refine (ld_unit_apply (iblk1 W c 1 t) _ _ j q (ι j) q ?_ ?_).trans (blkB W c t (ι j) q)
  · rw [o0]; exact hι j
  · rw [o1]; omega

/-- At a row block's first point the accumulator is reset: zero plus the first column block's sum. -/
theorem acc_first (c : Dev nD) (i : ℕ) (hi : i < 8) (r : Fin 1024) (q : Fin 256) (row : Fin 8192)
    (hrow : row.val = 1024 * i + r.val) (ι : Fin 2048 → Fin 8192) (hι : ∀ j, (ι j).val = j.val) :
    acc1 W c (4 * i) (ix2 r q) = 0 + ∑ j : Fin 2048, matA W c row (ι j) * matB W c (ι j) q := by
  have hN : cfg1.N = 32 := N_1
  have h := acc1_reset W c ⟨4 * i, by omega⟩ (by show (4 * i) % 4 = 0; omega)
  refine (congrFun h (ix2 r q)).trans ?_
  refine (step_sum W c ⟨4 * i, by omega⟩ r q row ι ?_ ?_ _).trans ?_
  · show row.val = 1024 * ((4 * i) / 4) + r.val; omega
  · intro j; show (ι j).val = 2048 * ((4 * i) % 4) + j.val; rw [hι j]; omega
  · exact congrArg (· + _) (pay1_apply r q)

/-- At each later point of the row block it gains that point's column block's sum. -/
theorem acc_next (c : Dev nD) (n n' i k : ℕ) (hi : i < 8) (hk : k < 3) (hn : n = 4 * i + k) (hn' : n' = n + 1)
    (r : Fin 1024) (q : Fin 256) (row : Fin 8192) (hrow : row.val = 1024 * i + r.val)
    (ι : Fin 2048 → Fin 8192) (hι : ∀ j, (ι j).val = 2048 * (k + 1) + j.val) :
    acc1 W c n' (ix2 r q) = acc1 W c n (ix2 r q) + ∑ j : Fin 2048, matA W c row (ι j) * matB W c (ι j) q := by
  have hN : cfg1.N = 32 := N_1
  subst hn'
  have h := acc1_step W c ⟨n + 1, by omega⟩ (by show ¬(n + 1) % 4 = 0; omega)
  refine (congrFun h (ix2 r q)).trans ?_
  refine (step_sum W c ⟨n + 1, by omega⟩ r q row ι ?_ ?_ _).trans ?_
  · show row.val = 1024 * ((n + 1) / 4) + r.val; omega
  · intro j; show (ι j).val = 2048 * ((n + 1) % 4) + j.val; rw [hι j]; omega
  · rfl

/-- So at a row block's last point the accumulator holds the whole row's sum. -/
theorem acc_last (c : Dev nD) (t : Fin cfg1.N) (h3 : t.val % 4 = 3) (r : Fin 1024) (q : Fin 256) (row : Fin 8192)
    (hrow : row.val = 1024 * (t.val / 4) + r.val) :
    acc1 W c t.val (ix2 r q) = ∑ j : Fin 8192, matA W c row j * matB W c j q := by
  have hN : cfg1.N = 32 := N_1
  obtain ⟨n, hn⟩ := t
  obtain ⟨i, rfl⟩ : ∃ i, n = 4 * i + 3 := ⟨n / 4, by have : n % 4 = 3 := h3; omega⟩
  have hi : i < 8 := by omega
  have hrow' : row.val = 1024 * i + r.val := by have : row.val = 1024 * ((4 * i + 3) / 4) + r.val := hrow; omega
  have e0 := acc_first W c i hi r q row hrow' (fun j => ⟨j.val, by omega⟩) (fun _ => rfl)
  have e1 := acc_next W c (4 * i) (4 * i + 1) i 0 hi (by omega) rfl rfl r q row hrow'
    (fun j => ⟨2048 + j.val, by omega⟩) (fun j => by show 2048 + j.val = 2048 * (0 + 1) + j.val; omega)
  have e2 := acc_next W c (4 * i + 1) (4 * i + 2) i 1 hi (by omega) rfl rfl r q row hrow'
    (fun j => ⟨4096 + j.val, by omega⟩) (fun j => by show 4096 + j.val = 2048 * (1 + 1) + j.val; omega)
  have e3 := acc_next W c (4 * i + 2) (4 * i + 3) i 2 hi (by omega) rfl rfl r q row hrow'
    (fun j => ⟨6144 + j.val, by omega⟩) (fun j => by show 6144 + j.val = 2048 * (2 + 1) + j.val; omega)
  show acc1 W c (4 * i + 3) (ix2 r q) = _
  rw [e3, e2, e1, e0]
  exact (sum_blocks fun j => matA W c row j * matB W c j q).symm

/-! ## The output array -/

/-- What the output array ends holding: the specification's second stage of the arrays found. -/
def outG (c : Dev nD) : S8192x256.Idx → EReal := fun idx =>
  Cert.GCN.out1 (matA W c) (matB W c) (colD W c) ⟨(idx 0).val, (idx 0).isLt⟩ ⟨(idx 1).val, (idx 1).isLt⟩

/-- What a point with k = 3 writes back is its block of that function. -/
theorem flushed_eq (c : Dev nD) (t : Fin cfg1.N) (hf : (cfg1.win 3).flush t = true) :
    (dat1 W c).flushed 3 t = ((cfg1.win 3).blk t).view.read (Elt Ideal) (outG W c) := by
  have hN : cfg1.N = 32 := N_1
  have h3 : t.val % 4 = 3 := (flush1_3 t).mp hf
  obtain ⟨-, -, o2, o3, o4, o5⟩ := off_facts t
  obtain ⟨-, -, -, -, -, -, e6, e7⟩ := idx_facts t
  show (cfg1.win 3).cut (grid1.coords t) ((dat1 W c).after 3 t) = _
  rw [after1_3 W c t h3]
  funext y
  obtain ⟨r, q, rfl⟩ : ∃ (r : Fin 1024) (q : Fin 256), y = ix2 r q := ⟨y 0, y 1, eq_ix2 y⟩
  have hrowlt : 1024 * (t.val / 4) + r.val < 8192 := by omega
  have hemb : ((cfg1.win 3).blk t).view.emb (ix2 r q) = ix2 (⟨1024 * (t.val / 4) + r.val, hrowlt⟩ : Fin 8192) q := by
    funext ax; apply Fin.ext
    match ax with
    | ⟨0, _⟩ => show win1_3.index t (0 : Fin 2) * 1024 + 1 * r.val = 1024 * (t.val / 4) + r.val; rw [e6]; omega
    | ⟨1, _⟩ => show win1_3.index t (1 : Fin 2) * 256 + 1 * q.val = q.val; rw [e7]; omega
  show k1_pay3 (F := Ideal) _ _ _ (ix2 r q) = outG W c (((cfg1.win 3).blk t).view.emb (ix2 r q))
  rw [hemb]
  refine (pay3_apply _ _ _ r q).trans ?_
  show _ = max (((∑ k : Fin 8192, matA W c ⟨1024 * (t.val / 4) + r.val, hrowlt⟩ k * matB W c k q)
    + matB W c ⟨1024 * (t.val / 4) + r.val, hrowlt⟩ q) * colD W c ⟨1024 * (t.val / 4) + r.val, hrowlt⟩) Cert.GCN.cZero
  rw [acc_last W c t h3 r q ⟨1024 * (t.val / 4) + r.val, hrowlt⟩ rfl]
  refine congrArg (max · Cert.GCN.cZero) (congr (congrArg HMul.hMul (congrArg (_ + ·) ?_)) ?_)
  · refine (ld_unit_apply (iblk1 W c 1 t) _ _ r q ⟨1024 * (t.val / 4) + r.val, hrowlt⟩ q ?_ ?_).trans (blkB W c t _ q)
    · rw [o2]
    · rw [o3]; omega
  · refine (ld_unit_apply (iblk1 W c 2 t) _ _ r (0 : Fin 1) ⟨1024 * (t.val / 4) + r.val, hrowlt⟩ (0 : Fin 1) ?_ ?_).trans (blkD W c t _ 0)
    · rw [o4]
    · rw [o5]; rfl

/-- An index of the output array is in point `t`'s block iff each coordinate is in the block's range. -/
theorem mem_blk (t : Fin cfg1.N) (i : S8192x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v1).slice (win1_3.rect t)).set ↔ _
  rw [View.set_slice_whole, Rect.mem_set_unit]
  exact Iff.rfl

/-- Row `r` of the output is written back by the last point of row block `r / 1024`. -/
theorem cover (i : S8192x256.Idx) :
    ∃ t : Fin cfg1.N, (cfg1.win 3).flush t = true ∧ i ∈ ((cfg1.win 3).blk t).view.set := by
  have hN : cfg1.N = 32 := N_1
  have h0 : (i 0).val < 8192 := (i 0).isLt
  have h1 : (i 1).val < 256 := (i 1).isLt
  have hlt : 4 * ((i 0).val / 1024) + 3 < cfg1.N := by omega
  obtain ⟨-, -, -, -, -, -, e6, e7⟩ := idx_facts ⟨4 * ((i 0).val / 1024) + 3, hlt⟩
  have e6' : win1_3.index ⟨4 * ((i 0).val / 1024) + 3, hlt⟩ (0 : Fin 2) = (i 0).val / 1024 := by
    rw [e6]; show (4 * ((i 0).val / 1024) + 3) / 4 = _; omega
  refine ⟨⟨4 * ((i 0).val / 1024) + 3, hlt⟩, (flush1_3 _).mpr (by show (4 * ((i 0).val / 1024) + 3) % 4 = 3; omega), ?_⟩
  rw [mem_blk]
  intro a
  match a with
  | ⟨0, _⟩ =>
    show win1_3.index ⟨4 * ((i 0).val / 1024) + 3, hlt⟩ (0 : Fin 2) * 1024 ≤ (i 0).val
      ∧ (i 0).val < win1_3.index ⟨4 * ((i 0).val / 1024) + 3, hlt⟩ (0 : Fin 2) * 1024 + 1024
    rw [e6']; omega
  | ⟨1, _⟩ =>
    show win1_3.index ⟨4 * ((i 0).val / 1024) + 3, hlt⟩ (1 : Fin 2) * 256 ≤ (i 1).val
      ∧ (i 1).val < win1_3.index ⟨4 * ((i 0).val / 1024) + 3, hlt⟩ (1 : Fin 2) * 256 + 256
    rw [e7]; omega

/-- THE SECOND STAGE'S VALUE: after the region the output array is the specification's second stage of the matrix,
    the scaled features and the scales the region found. -/
theorem out_val (V : (c : Dev nD) → (b : Ref sig .tc) → Buf (Elt Ideal) ((c : Thread nD τ).loc b)) (c : Dev nD)
    (r : Fin 8192) (q : Fin 256) :
    (dat1 (F := Ideal) V c).arrAt 3 cfg1.N (ix2 r q)
      = Cert.GCN.out1 (fun a b => V c main_arg1 (ix2 a b)) (fun a b => V c main_v0_1 (ix2 a b))
          (fun a => V c main_v0_0 (ix2 a (0 : Fin 1))) r q :=
  congrFun ((dat1 V c).arrAt_eq_of_cover 3 (outG V c) (flushed_eq V c) cover) (ix2 r q)

/-- The region's three input arrays are as it found them. -/
theorem arr_in1 (V : (c : Dev nD) → (b : Ref sig .tc) → Buf (Elt Ideal) ((c : Thread nD τ).loc b)) (c : Dev nD) :
    (dat1 V c).arrAt 0 cfg1.N = V c main_arg1 ∧ (dat1 V c).arrAt 1 cfg1.N = V c main_v0_1
      ∧ (dat1 V c).arrAt 2 cfg1.N = V c main_v0_0 :=
  ⟨((dat1 V c).arrAt_in 0 rfl _).trans (A_eq1 V c 0), ((dat1 V c).arrAt_in 1 rfl _).trans (A_eq1 V c 1),
    ((dat1 V c).arrAt_in 2 rfl _).trans (A_eq1 V c 2)⟩

end AtIdeal

end Cert.KernelIdeal.HandValue

end
-- ==== Proof.Ref.lean ====
/-
  The normalised-matrix side of the claim, read index by index.

  The host program builds the identity as "row number = column number" converted to a float, adds it to the adjacency,
  sums each row, adds the small literal, takes one over the square root, scales the matrix by that vector on both
  sides, multiplies by the product of the features with the weights, and clamps at zero.  Each stage is read here at an
  index built from literal coordinates, and the last theorem says the whole term is the specification's outR.
-/
import proofs.«101077_j30270929502676_2_alg».proof.Proof.Gen.ReferenceIdeal.Read
import proofs.«101077_j30270929502676_2_alg».proof.Proof.Spec

noncomputable section

namespace Cert.ReferenceIdeal.RefValue

open Cert.ReferenceIdeal Cert.ReferenceIdeal.Read Idealize.ShloMosaic Idealize.ShloMosaic.ValueIdx

/-! ## The identity matrix -/

/-- Two row numbers below 8192, as 32-bit words, are equal words exactly when they are equal numbers. -/
theorem eye_word (r j : Fin 8192) :
    IntOp.cmpi .eq (IntOp.addi (BitVec.ofNat 32 r.val) 0#32) (BitVec.ofNat 32 j.val) = if r = j then 1#1 else 0#1 := by
  unfold IntOp.cmpi IntOp.addi
  rw [BitVec.add_zero]
  by_cases h : r = j
  · subst h; simp
  · rw [if_neg h]
    have hne : (BitVec.ofNat 32 r.val == BitVec.ofNat 32 j.val) = false := by
      rw [beq_eq_false_iff_ne]
      intro e
      have e' := congrArg BitVec.toNat e
      simp only [BitVec.toNat_ofNat] at e'
      have hr := r.isLt
      have hj := j.isLt
      exact h (Fin.ext (by omega))
    show BitVec.ofBool (BitVec.ofNat 32 r.val == BitVec.ofNat 32 j.val) = 0#1
    rw [hne]; rfl

/-- The converted comparison is the identity matrix's entry. -/
theorem eye_apply (r j : Fin 8192) : val_main_v5 (F := Ideal) (ix2 r j) = Cert.GCN.eye r j := by
  rw [val_main_v5_apply, val_main_v4_apply, val_main_v3_apply, val_main_v2_apply, val_main_c_apply,
    val_main_v0_apply, val_main_v1_apply]
  show FloatOps.uitofp (F := Ideal) .f32 (IntOp.cmpi .eq (IntOp.addi (BitVec.ofNat 32 r.val) 0#32) (BitVec.ofNat 32 j.val)) = _
  rw [eye_word]
  unfold Cert.GCN.eye
  by_cases h : r = j
  · rw [if_pos h, if_pos h]
    show (((1#1 : BitVec 1).toNat : ℝ) : EReal) = 1
    simp
  · rw [if_neg h, if_neg h]
    show (((0#1 : BitVec 1).toNat : ℝ) : EReal) = 0
    simp

/-! ## The matrix plus the identity, its row sums, and the scaling vector -/

/-- An entry of the adjacency plus the identity. -/
theorem aplus_apply (A : FVec Ideal S8192x8192 .f32) (r j : Fin 8192) :
    val_main_v6 (F := Ideal) A (ix2 r j) = A (ix2 r j) + Cert.GCN.eye r j := by
  rw [val_main_v6_apply, eye_apply]; rfl

/-- The column index the row sum reads is the pair (row, column). -/
theorem idx_rowsum (r k : Fin 8192) : idx_main_v7 (ix1 r) k = ix2 r k :=
  funext fun a => Fin.ext (by match a with | ⟨0, _⟩ => rfl | ⟨1, _⟩ => rfl)

/-- A row's degree: the sum of the row of the adjacency plus the identity, plus the small literal. -/
theorem deg_apply (A : FVec Ideal S8192x8192 .f32) (r : Fin 8192) :
    val_main_v9 (F := Ideal) A (ix1 r) = Cert.GCN.degR (fun a b => A (ix2 a b)) r := by
  rw [val_main_v9_apply, val_main_v7_apply, val_main_cst_apply, val_main_v8_apply, val_main_cst_0_apply]
  simp only [idx_rowsum, aplus_apply, Ideal.ofBits_def, Ideal.addf_def, Ideal.ofBits_zero_f32, zero_add]
  rfl

/-- The scaling vector: one over the square root of the degree. -/
theorem d_apply (A : FVec Ideal S8192x8192 .f32) (r : Fin 8192) :
    val_main_v12 (F := Ideal) A (ix1 r) = Cert.GCN.dR (fun a b => A (ix2 a b)) r := by
  rw [val_main_v12_apply, val_main_v11_apply, val_main_cst_1_apply, val_main_v10_apply, deg_apply]
  rfl

/-- The index the row-wise broadcast of the scaling vector reads. -/
theorem idx_rowscale (r j : Fin 8192) : idx_main_v13 (idx_main_v14 (ix2 r j)) = ix1 r :=
  funext fun a => Fin.ext (by match a with | ⟨0, _⟩ => rfl)

/-- The index the column-wise broadcast of the scaling vector reads. -/
theorem idx_colscale (r j : Fin 8192) : idx_main_v16 (idx_main_v17 (ix2 r j)) = ix1 j :=
  funext fun a => Fin.ext (by match a with | ⟨0, _⟩ => rfl)

/-- An entry of the normalised matrix. -/
theorem norm_apply (A : FVec Ideal S8192x8192 .f32) (r j : Fin 8192) :
    val_main_v18 (F := Ideal) A (ix2 r j)
      = (Cert.GCN.dR (fun a b => A (ix2 a b)) r * (A (ix2 r j) + Cert.GCN.eye r j)) * Cert.GCN.dR (fun a b => A (ix2 a b)) j := by
  rw [val_main_v18_apply, val_main_v15_apply, val_main_v14_apply, val_main_v13_apply, val_main_v17_apply,
    val_main_v16_apply, idx_rowscale, idx_colscale, d_apply, d_apply, aplus_apply]
  rfl

/-! ## The product of the features with the weights -/

theorem lidx_xw (j : Fin 8192) (q : Fin 256) (f : Fin 512) : lidx_main_v19 (ix2 j q) f = ix2 j f :=
  funext fun a => Fin.ext (by match a with | ⟨0, _⟩ => rfl | ⟨1, _⟩ => rfl)
theorem ridx_xw (j : Fin 8192) (q : Fin 256) (f : Fin 512) : ridx_main_v19 (ix2 j q) f = ix2 f q :=
  funext fun a => Fin.ext (by match a with | ⟨0, _⟩ => rfl | ⟨1, _⟩ => rfl)

/-- An entry of the features times the weights. -/
theorem xw_apply (X : FVec Ideal S8192x512 .f32) (W : FVec Ideal S512x256 .f32) (j : Fin 8192) (q : Fin 256) :
    val_main_v19 (F := Ideal) X W (ix2 j q) = Cert.GCN.xw (fun a b => X (ix2 a b)) (fun a b => W (ix2 a b)) j q := by
  rw [val_main_v19_apply]
  simp only [lidx_xw, ridx_xw]
  rfl

/-! ## The whole side -/

theorem lidx_out (r : Fin 8192) (q : Fin 256) (k : Fin 8192) : lidx_main_v20 (ix2 r q) k = ix2 r k :=
  funext fun a => Fin.ext (by match a with | ⟨0, _⟩ => rfl | ⟨1, _⟩ => rfl)
theorem ridx_out (r : Fin 8192) (q : Fin 256) (k : Fin 8192) : ridx_main_v20 (ix2 r q) k = ix2 k q :=
  funext fun a => Fin.ext (by match a with | ⟨0, _⟩ => rfl | ⟨1, _⟩ => rfl)

/-- The host program's result, index by index, is the specification's normalised-matrix side. -/
theorem ref_val (X : FVec Ideal S8192x512 .f32) (A : FVec Ideal S8192x8192 .f32) (W : FVec Ideal S512x256 .f32)
    (r : Fin 8192) (q : Fin 256) :
    val_main_v21 (F := Ideal) X A W (ix2 r q)
      = Cert.GCN.outR (fun a b => A (ix2 a b)) (fun a b => X (ix2 a b)) (fun a b => W (ix2 a b)) r q := by
  rw [val_main_v21_apply, val_main_v20_apply, val_main_call0_v0_apply, val_main_call0_cst_apply]
  simp only [lidx_out, ridx_out, norm_apply, xw_apply]
  rfl

/-- Any function of the result's index that is the specification's normalised-matrix side at every pair of
    coordinates is the host program's result. -/
theorem ref_val_eq_of (X : FVec Ideal S8192x512 .f32) (A : FVec Ideal S8192x8192 .f32) (W : FVec Ideal S512x256 .f32)
    (G : S8192x256.Idx → EReal)
    (hG : ∀ (r : Fin 8192) (q : Fin 256),
      G (ix2 r q) = Cert.GCN.outR (fun a b => A (ix2 a b)) (fun a b => X (ix2 a b)) (fun a b => W (ix2 a b)) r q) :
    val_main_v21 (F := Ideal) X A W = G := by
  funext i
  obtain ⟨r, q, rfl⟩ : ∃ (r : Fin 8192) (q : Fin 256), i = ix2 r q := ⟨i 0, i 1, eq_ix2 i⟩
  rw [ref_val, hG]

end Cert.ReferenceIdeal.RefValue

end
-- ==== Proof.PreFacts.lean ====
/-
  What the precondition says, at the extended reals: every entry of the three inputs is a real number, and every
  degree (the row sum of the adjacency plus the identity, plus the small literal) is positive.

  The precondition is a conjunction of four "all entries satisfy" tests.  Three compare an entry's absolute value
  with the word of plus infinity: an extended real whose absolute value is below the top is neither infinity, hence a
  real.  The fourth compares each degree, built with exactly the operations of the normalised-matrix side, with zero.
-/
import proofs.«101077_j30270929502676_2_alg».proof.Proof.Gen.Pre_finite_inputs
import proofs.«101077_j30270929502676_2_alg».proof.Proof.Spec
import proofs.«101077_j30270929502676_2_alg».proof.Proof.Ref
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs Cert.Pre_finite_inputs.Gen

/-- The shape with no axes has one index. -/
instance : Subsingleton S_.Idx := ⟨fun a b => funext fun d => d.elim0⟩

/-- The word `0x7F800000` denotes the top. -/
theorem ofBits_inf : Ideal.ofBits .f32 0x7F800000#32 = ⊤ := by
  simp [Ideal.ofBits, Ideal.ieee]

/-- A comparison word that is one says the comparison holds: "less than". -/
theorem lt_of_cmp_olt {x y : EReal} (h : Ideal.cmp .olt x y = 1#1) : x < y := by
  unfold Ideal.cmp at h
  by_contra hn
  simp [hn] at h

/-- A comparison word that is one says the comparison holds: "greater than". -/
theorem lt_of_cmp_ogt {x y : EReal} (h : Ideal.cmp .ogt x y = 1#1) : y < x := by
  unfold Ideal.cmp at h
  by_contra hn
  simp [hn] at h

/-- An extended real whose absolute value is below the top is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the three finiteness conjuncts. -/
theorem real_of_test (x : EReal)
    (h : Ideal.cmp .olt (max x (-x)) (Ideal.ofBits .f32 0x7F800000#32) = 1#1) : ∃ r : ℝ, x = (r : EReal) := by
  have h' := lt_of_cmp_olt h
  rw [ofBits_inf] at h'
  exact real_of_abs_lt_top x h'

set_option maxHeartbeats 100000 in
theorem of_pre (X : FVec Ideal S8192x512 .f32) (A : FVec Ideal S8192x8192 .f32) (W : FVec Ideal S512x256 .f32)
    (h : Cert.Pre_finite_inputs.fn (F := Ideal) X A W = fun _ => 1#1) :
    (∀ (a : Fin 8192) (b : Fin 512), ∃ x : ℝ, X (ix2 a b) = (x : EReal)) ∧ (∀ (a b : Fin 8192), ∃ x : ℝ, A (ix2 a b) = (x : EReal))
    ∧ (∀ (a : Fin 512) (b : Fin 256), ∃ x : ℝ, W (ix2 a b) = (x : EReal)) ∧ (∀ r : Fin 8192, 0 < Cert.GCN.degR (fun a b => A (ix2 a b)) r) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun a b => ?_, fun a b => ?_, fun a b => ?_, fun r => ?_⟩
  · exact real_of_test _ (Host.reduce_andi_all _ _ _ _ _ h1 (ix2 a b))
  · exact real_of_test _ (Host.reduce_andi_all _ _ _ _ _ h2 (ix2 a b))
  · exact real_of_test _ (Host.reduce_andi_all _ _ _ _ _ h3 (ix2 a b))
  · have h5 := Host.reduce_andi_all _ _ _ _ _ h4 (ix1 r)
    have h6 : Ideal.cmp .ogt (Cert.ReferenceIdeal.Read.val_main_v9 (F := Ideal) A (ix1 r)) (Ideal.ofBits .f32 0x00000000#32) = 1#1 := h5
    have h7 := lt_of_cmp_ogt h6
    rw [Ideal.ofBits_zero_f32, Cert.ReferenceIdeal.RefValue.deg_apply] at h7
    exact h7

end Cert.PreFacts

end
-- ==== Proof.Algebra.lean ====
/-
  The two sides of the claim agree when every entry is a real number and every degree is positive.

  Three steps.  The two degrees are one extended real: the row sum of `A + I` splits into the row sum of `A`
  plus the row sum of the identity, which is one.  At a positive real degree `x` both the reciprocal square
  root and one over the square root are the real `(√x)⁻¹`.  Every quantity is then the image of a real, and
  over the reals the two expressions are equal by distributivity: the identity's row sum picks out the node's
  own term.
-/
import proofs.«101077_j30270929502676_2_alg».proof.Proof.Spec
import Mathlib.Tactic.Ring
import Mathlib.Tactic.NormNum

noncomputable section

namespace Cert.GCN

open Idealize.ShloMosaic

/-! ## The three literals -/

/-- The word `0x3F800000` denotes one. -/
theorem cOne_eq : cOne = 1 := by
  unfold cOne
  simp [Ideal.ofBits, Ideal.ieee, -EReal.coe_mul]; norm_num

/-- The word `0x00000000` denotes zero. -/
theorem cZero_eq : cZero = 0 := by
  unfold cZero
  simp [Ideal.ofBits, Ideal.ieee]

/-- The small literal is a finite pattern (its exponent field is neither all ones nor zero), so it denotes a real. -/
theorem cEps_real : ∃ e : ℝ, cEps = (e : EReal) := by
  unfold cEps
  simp only [Ideal.ofBits, Ideal.ieee]
  rw [if_neg (by decide), if_neg (by decide)]
  exact ⟨_, rfl⟩

/-! ## Sums of reals inside the extended reals -/

/-- A finite sum of images of reals is the image of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The real identity -/

/-- Distributivity over the reals: aggregating the scaled rows, adding the node's own scaled row and scaling again
    is the sum against the normalised matrix `s r * (a r j + δ r j) * s j`. -/
theorem real_identity {ι : Type*} [Fintype ι] [DecidableEq ι] (a : ι → ι → ℝ) (y s : ι → ℝ) (r : ι) :
    ((∑ k, a r k * (y k * s k)) + y r * s r) * s r
      = ∑ j, ((s r * (a r j + (if r = j then (1 : ℝ) else 0))) * s j) * y j := by
  have h : ∀ j, ((s r * (a r j + (if r = j then (1 : ℝ) else 0))) * s j) * y j
      = s r * (a r j * (y j * s j)) + (if r = j then s r * s j * y j else 0) := by
    intro j; split_ifs <;> ring
  rw [Finset.sum_congr rfl (fun j _ => h j), Finset.sum_add_distrib, Finset.sum_ite_eq, ← Finset.mul_sum,
    if_pos (Finset.mem_univ r)]
  ring

/-! ## The degrees -/

/-- The identity's row sums to one. -/
theorem sum_eye (r : Fin 8192) : ∑ j : Fin 8192, eye r j = 1 := by
  unfold eye
  rw [Finset.sum_ite_eq, if_pos (Finset.mem_univ r)]

/-- The two degrees are one extended real: the row sum of `A + I` is the row sum of `A` plus one. -/
theorem degK_eq_degR (A : Fin 8192 → Fin 8192 → EReal) (r : Fin 8192) : degK A r = degR A r := by
  unfold degK degR
  rw [Finset.sum_add_distrib, sum_eye, cOne_eq]

/-! ## The two reciprocal square roots at a positive real -/

/-- At a positive real the reciprocal square root is the real `(√x)⁻¹`. -/
theorem rsqrt_of_pos {x : ℝ} (hx : 0 < x) : Ideal.rsqrt (x : EReal) = (((Real.sqrt x)⁻¹ : ℝ) : EReal) := by
  rw [Ideal.rsqrt_coe, if_neg (not_lt.mpr hx.le), if_neg hx.ne']

/-- At a positive real one over the square root is the same real `(√x)⁻¹`. -/
theorem div_sqrt_of_pos {x : ℝ} (hx : 0 < x) :
    Ideal.div cOne (Ideal.sqrt (x : EReal)) = (((Real.sqrt x)⁻¹ : ℝ) : EReal) := by
  have hs : Real.sqrt x ≠ 0 := (Real.sqrt_pos.mpr hx).ne'
  rw [Ideal.sqrt_coe, if_neg (not_lt.mpr hx.le), Ideal.div_coe hs, cOne_eq, one_mul, one_div]

/-! ## The identity inside the extended reals -/

/-- The real identity, read through the coercion: every factor is the image of a real, so both expressions are the
    image of one real. -/
theorem core {ι : Type*} [Fintype ι] [DecidableEq ι] (a : ι → ι → ℝ) (y s : ι → ℝ) (r : ι) :
    ((∑ k, (a r k : EReal) * ((y k : EReal) * (s k : EReal))) + (y r : EReal) * (s r : EReal)) * (s r : EReal)
      = ∑ j, (((s r : EReal) * ((a r j : EReal) + (if r = j then (1 : EReal) else 0))) * (s j : EReal)) * (y j : EReal) := by
  have hδ : ∀ j, (if r = j then (1 : EReal) else 0) = (((if r = j then (1 : ℝ) else 0) : ℝ) : EReal) := by
    intro j; split_ifs <;> simp
  have hl : ∀ k, (a r k : EReal) * ((y k : EReal) * (s k : EReal)) = ((a r k * (y k * s k) : ℝ) : EReal) := by
    intro k; rw [← EReal.coe_mul, ← EReal.coe_mul]
  have hr : ∀ j, (((s r : EReal) * ((a r j : EReal) + (if r = j then (1 : EReal) else 0))) * (s j : EReal)) * (y j : EReal)
      = ((((s r * (a r j + (if r = j then (1 : ℝ) else 0))) * s j) * y j : ℝ) : EReal) := by
    intro j; rw [hδ j, ← EReal.coe_add, ← EReal.coe_mul, ← EReal.coe_mul, ← EReal.coe_mul]
  rw [Finset.sum_congr rfl (fun k _ => hl k), Finset.sum_congr rfl (fun j _ => hr j), coe_sum, coe_sum,
    ← EReal.coe_mul, ← EReal.coe_add, ← EReal.coe_mul, real_identity]

/-! ## The two sides -/

/-- With real entries the product of the features with the weights is real. -/
theorem xw_real (X : Fin 8192 → Fin 512 → EReal) (W : Fin 512 → Fin 256 → EReal)
    (hX : ∀ r f, ∃ x : ℝ, X r f = (x : EReal)) (hW : ∀ f q, ∃ w : ℝ, W f q = (w : EReal)) (q : Fin 256) :
    ∃ y : Fin 8192 → ℝ, ∀ r, xw X W r q = (y r : EReal) := by
  choose x hx using hX
  choose w hw using hW
  refine ⟨fun r => ∑ f, x r f * w f q, fun r => ?_⟩
  have h : ∀ f, X r f * W f q = ((x r f * w f q : ℝ) : EReal) := fun f => by
    rw [hx r f, hw f q, ← EReal.coe_mul]
  unfold xw
  rw [Finset.sum_congr rfl (fun f _ => h f), coe_sum]

/-- With real entries a degree is real. -/
theorem degR_real (A : Fin 8192 → Fin 8192 → EReal) (hA : ∀ r j, ∃ a : ℝ, A r j = (a : EReal)) :
    ∃ d : Fin 8192 → ℝ, ∀ r, degR A r = (d r : EReal) := by
  choose a ha using hA
  obtain ⟨e, he⟩ := cEps_real
  refine ⟨fun r => (∑ j, a r j) + 1 + e, fun r => ?_⟩
  rw [← degK_eq_degR]
  unfold degK
  rw [Finset.sum_congr rfl (fun j _ => ha r j), coe_sum, cOne_eq, he, EReal.coe_add, EReal.coe_add, EReal.coe_one]

/-- With real entries and positive degrees the two scales are one real function. -/
theorem scales_real (A : Fin 8192 → Fin 8192 → EReal) (hA : ∀ r j, ∃ a : ℝ, A r j = (a : EReal))
    (hpos : ∀ r, 0 < degR A r) :
    ∃ s : Fin 8192 → ℝ, (∀ r, dinvK A r = (s r : EReal)) ∧ (∀ r, dR A r = (s r : EReal)) := by
  obtain ⟨d, hd⟩ := degR_real A hA
  have hp : ∀ r, 0 < d r := fun r => by
    have h := hpos r
    rw [hd r] at h
    exact_mod_cast h
  refine ⟨fun r => (Real.sqrt (d r))⁻¹, fun r => ?_, fun r => ?_⟩
  · unfold dinvK
    rw [degK_eq_degR, hd r, rsqrt_of_pos (hp r)]
  · unfold dR
    rw [hd r, div_sqrt_of_pos (hp r)]

/-- The two sides are equal when every entry is real and every degree is positive. -/
theorem outK_eq_outR (A : Fin 8192 → Fin 8192 → EReal) (X : Fin 8192 → Fin 512 → EReal) (W : Fin 512 → Fin 256 → EReal)
    (hA : ∀ r j, ∃ a : ℝ, A r j = (a : EReal)) (hX : ∀ r f, ∃ x : ℝ, X r f = (x : EReal))
    (hW : ∀ f q, ∃ w : ℝ, W f q = (w : EReal))
    (hpos : ∀ r, 0 < degR A r) (r : Fin 8192) (q : Fin 256) : outK A X W r q = outR A X W r q := by
  obtain ⟨s, hsK, hsR⟩ := scales_real A hA hpos
  obtain ⟨y, hy⟩ := xw_real X W hX hW q
  choose a ha using hA
  have hl : ∀ k, A r k * (xw X W k q * dinvK A k) = (a r k : EReal) * ((y k : EReal) * (s k : EReal)) := fun k => by
    rw [ha r k, hy k, hsK k]
  have hr : ∀ j, ((dR A r * (A r j + eye r j)) * dR A j) * xw X W j q
      = (((s r : EReal) * ((a r j : EReal) + (if r = j then (1 : EReal) else 0))) * (s j : EReal)) * (y j : EReal) := fun j => by
    rw [ha r j, hy j, hsR r, hsR j]
    rfl
  unfold outK out1 outR BK
  refine congrArg (fun t => max t cZero) ?_
  rw [Finset.sum_congr rfl (fun k _ => hl k), Finset.sum_congr rfl (fun j _ => hr j), hy r, hsK r]
  exact core a y s r

end Cert.GCN

end
-- ==== Proof.lean ====
/-
  The proof of `Cert.Claim`: a graph-convolution layer  relu (D^(-1/2) (A + I) D^(-1/2) (X W))  computed by two kernel
  regions against the plain formula.

  The frames.  Each of the two printed programs runs its two regions one after the other; every weakly fair
  execution terminates and leaves the three argument arrays as launched (`Hand.frame`, the run of the program's
  two segments).  The plain formula is a straight line of host operations; its frame is its run with the result dropped.

  The value.  Region 0 leaves, row by row, the scale  dinv r = rsqrt (rowsum A r + 1 + eps)  and the scaled features
  B r q = (X W) r q * dinv r;  region 1 accumulates  ∑ k, A r k * B k q  over four column blocks, adds the node's own
  row, scales by dinv r again and clamps at zero.  The plain formula normalises the matrix first, with
  d r = 1 / sqrt (rowsum (A + I) r + eps).  Where every degree is positive and every entry is a real number —
  which is what the precondition says — rsqrt and 1 / sqrt are one function and the two expressions are equal by
  distributivity (`Cert.GCN.outK_eq_outR`).
-/
import proofs.«101077_j30270929502676_2_alg».proof.Defs
import proofs.«101077_j30270929502676_2_alg».proof.Proof.Gen.Kernel
import proofs.«101077_j30270929502676_2_alg».proof.Proof.Gen.KernelIdeal
import proofs.«101077_j30270929502676_2_alg».proof.Proof.Gen.ReferenceIdeal
import proofs.«101077_j30270929502676_2_alg».proof.Proof.Gen.Pre_finite_inputs
import proofs.«101077_j30270929502676_2_alg».proof.Proof.Gen.ReferenceIdeal.Read
import proofs.«101077_j30270929502676_2_alg».proof.Proof.K.Run
import proofs.«101077_j30270929502676_2_alg».proof.Proof.KI.Run
import proofs.«101077_j30270929502676_2_alg».proof.Proof.Val0
import proofs.«101077_j30270929502676_2_alg».proof.Proof.Val1
import proofs.«101077_j30270929502676_2_alg».proof.Proof.Ref
import proofs.«101077_j30270929502676_2_alg».proof.Proof.PreFacts
import proofs.«101077_j30270929502676_2_alg».proof.Proof.Algebra
import Idealize.ShloMosaic.Adequacy
import Idealize.ShloMosaic.Init

noncomputable section

namespace Cert.Proof

open Idealize.ShloMosaic Idealize.SL.Sem Idealize.ShloMosaic.ValueIdx

/-! ## The frames -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-! ## The value -/

section Value

open Cert.KernelIdeal Cert.KernelIdeal.Hand

variable (m : (ℓ : Loc Cert.KernelIdeal.nD Cert.KernelIdeal.τ Cert.KernelIdeal.sig) → Buf (Elt Ideal) ℓ)
  (ρ : Dev Cert.KernelIdeal.nD → PrngReg)

/-- The adjacency, the features and the weights of core `c`, entry by entry. -/
abbrev adj (c : Dev Cert.KernelIdeal.nD) : Fin 8192 → Fin 8192 → EReal := fun a b => m ((c.tc : Thread nD τ).loc main_arg1) (ix2 a b)
abbrev feat (c : Dev Cert.KernelIdeal.nD) : Fin 8192 → Fin 512 → EReal := fun a b => m ((c.tc : Thread nD τ).loc main_arg0) (ix2 a b)
abbrev wts (c : Dev Cert.KernelIdeal.nD) : Fin 512 → Fin 256 → EReal := fun a b => m ((c.tc : Thread nD τ).loc main_arg2) (ix2 a b)

/-- What the two regions leave in the result array is the row-scaling side of the specification: region 1's value at
    the contents region 0 left (the adjacency untouched, the scales and the scaled features by region 0's value). -/
theorem kernel_value (c : Dev Cert.KernelIdeal.nD) (r : Fin 8192) (q : Fin 256) :
    (dat1 (F := Ideal) (V1 m ρ) c).arrAt 3 cfg1.N (ix2 r q) = Cert.GCN.outK (adj m c) (feat m c) (wts m c) r q := by
  rw [Cert.KernelIdeal.HandValue.out_val (V1 m ρ) c r q]
  have eA : (fun a b => V1 m ρ c main_arg1 (ix2 a b)) = adj m c := by
    funext a b; rw [V1_main_arg1 m ρ c]
  have eB : (fun a b => V1 m ρ c main_v0_1 (ix2 a b)) = Cert.GCN.BK (adj m c) (feat m c) (wts m c) := by
    funext a b; rw [V1_main_v0_1 m ρ c, Cert.KernelIdeal.HandValue0.B_val (V0 m ρ) c a b]
  have eD : (fun a => V1 m ρ c main_v0_0 (ix2 a (0 : Fin 1))) = Cert.GCN.dinvK (adj m c) := by
    funext a; rw [V1_main_v0_0 m ρ c, Cert.KernelIdeal.HandValue0.dinv_val (V0 m ρ) c a]
  rw [eA, eB, eD]; rfl

end Value

/-- From memories that agree on the arguments both programs end with the same result: the plain formula's value. -/
theorem algebraic : Cert.algebraic_KernelIdeal_ReferenceIdeal := by
  intro m ρ m' ρ' hpre hagree
  refine ⟨fun c j => Cert.GCN.outR (adj m c) (feat m c) (wts m c) (j 0) (j 1), ?_, ?_⟩
  · refine (θ_run Cert.KernelIdeal.defs _ _).mono (fun _ h c => ⟨(h c).1.trans ?_, (h c).2⟩)
      (Cert.KernelIdeal.Hand.run_result (F := Ideal) m ρ)
    obtain ⟨hX, hA, hW, hpos⟩ := Cert.PreFacts.of_pre _ _ _ (hpre c)
    funext j
    obtain ⟨r, q, rfl⟩ : ∃ (r : Fin 8192) (q : Fin 256), j = ix2 r q := ⟨j 0, j 1, eq_ix2 j⟩
    rw [kernel_value m ρ c r q]
    exact Cert.GCN.outK_eq_outR (adj m c) (feat m c) (wts m c) hA hX hW hpos r q
  · refine (θ_run Cert.ReferenceIdeal.defs _ _).mono (fun _ h c => ⟨?_, (h c).2⟩)
      (Cert.ReferenceIdeal.Value.run (F := Ideal) m' ρ')
    rw [(h c).1, Cert.ReferenceIdeal.Read.val_main_v21_eq, (hagree c).1, (hagree c).2.1, (hagree c).2.2]
    exact Cert.ReferenceIdeal.RefValue.ref_val_eq_of _ _ _ _ (fun r q => rfl)

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
